-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5000 : Shape := ⟨2, ![10000, 5000]⟩
abbrev S5000x10000 : Shape := ⟨2, ![5000, 10000]⟩
abbrev S1500000 : Shape := ⟨1, ![1500000]⟩
abbrev S5000x64 : Shape := ⟨2, ![5000, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S32x64 : Shape := ⟨2, ![32, 64]⟩
abbrev S64x1 : Shape := ⟨2, ![64, 1]⟩
abbrev S1 : Shape := ⟨1, ![1]⟩
abbrev S10000 : Shape := ⟨1, ![10000]⟩
abbrev S100000 : Shape := ⟨1, ![100000]⟩
abbrev S_ : Shape := ⟨0, ![]⟩

class Facts : Prop where
  bcast_S_S10000x5000 : S_.BroadcastsInDim S10000x5000 (![] : Fin 0 → Fin S10000x5000.rank)
  reducesTo_S10000x5000_S_d0_1 : S10000x5000.ReducesTo [0, 1] S_
  h_S_ : 0 < S_.numel
  bcast_S_S5000x10000 : S_.BroadcastsInDim S5000x10000 (![] : Fin 0 → Fin S5000x10000.rank)
  reducesTo_S5000x10000_S_d0_1 : S5000x10000.ReducesTo [0, 1] S_
  bcast_S_S1500000 : S_.BroadcastsInDim S1500000 (![] : Fin 0 → Fin S1500000.rank)
  reducesTo_S1500000_S_d0 : S1500000.ReducesTo [0] S_
  bcast_S_S5000x64 : S_.BroadcastsInDim S5000x64 (![] : Fin 0 → Fin S5000x64.rank)
  reducesTo_S5000x64_S_d0_1 : S5000x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S10000x64 : S_.BroadcastsInDim S10000x64 (![] : Fin 0 → Fin S10000x64.rank)
  reducesTo_S10000x64_S_d0_1 : S10000x64.ReducesTo [0, 1] S_
  bcast_S_S32x64 : S_.BroadcastsInDim S32x64 (![] : Fin 0 → Fin S32x64.rank)
  reducesTo_S32x64_S_d0_1 : S32x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S10000 : S_.BroadcastsInDim S10000 (![] : Fin 0 → Fin S10000.rank)
  reducesTo_S10000_S_d0 : S10000.ReducesTo [0] S_

variable [Facts]

def fn_part4 {F : FTy → Type} [FloatOps F] (main_arg16 : FVec F S1 .f32) (main_arg17 : FVec F S10000 .f32) (main_arg18 : FVec F S10000 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S10000 .f32 := Host.absf main_arg17
  let main_cst_28 : FVec F S_ .f32 := constant S_ .f32 0x7F800000#32
  let main_v75 : FVec F S10000 .f32 := broadcastInDim S10000 ![] bcast_S_S10000 main_cst_28
  let main_v76 : IVec S10000 1 := cmpf .olt main_v74 main_v75
  let main_c_29 : IVec S_ 1 := constantI S_ 1 1#1
  let main_v77 : IVec S_ 1 := (fun x v => Host.reduce IntOp.andi x v reducesTo_S10000_S_d0 h_S_) main_v76 main_c_29
  let main_v78 : IVec S_ 1 := andi main_v73 main_v77
  let main_v79 : FVec F S10000 .f32 := Host.absf main_arg18
  let main_cst_30 : FVec F S_ .f32 := constant S_ .f32 0x7F800000#32
  let main_v80 : FVec F S10000 .f32 := broadcastInDim S10000 ![] bcast_S_S10000 main_cst_30
  let main_v81 : IVec S10000 1 := cmpf .olt main_v79 main_v80
  let main_c_31 : IVec S_ 1 := constantI S_ 1 1#1
  let main_v82 : IVec S_ 1 := (fun x v => Host.reduce IntOp.andi x v reducesTo_S10000_S_d0 h_S_) main_v81 main_c_31
  let main_v83 : IVec S_ 1 := andi main_v78 main_v82
  main_v83

def fn_part3 {F : FTy → Type} [FloatOps F] (main_arg13 : FVec F S32x64 .f32) (main_arg14 : FVec F S64 .f32) (main_arg15 : FVec F S64x1 .f32) (main_arg16 : FVec F S1 .f32) (main_arg17 : FVec F S10000 .f32) (main_arg18 : FVec F S10000 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S32x64 .f32 := Host.absf main_arg13
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_arg17 main_arg18 main_v63 main_v67

def fn_part2 {F : FTy → Type} [FloatOps F] (main_arg9 : FVec F S10000x64 .f32) (main_arg10 : FVec F S64 .f32) (main_arg11 : FVec F S64x16 .f32) (main_arg12 : FVec F S16 .f32) (main_arg13 : FVec F S32x64 .f32) (main_arg14 : FVec F S64 .f32) (main_arg15 : FVec F S64x1 .f32) (main_arg16 : FVec F S1 .f32) (main_arg17 : FVec F S10000 .f32) (main_arg18 : FVec F S10000 .f32) (main_v33 : IVec S_ 1) : IVec S_ 1 :=
  let main_v34 : FVec F S10000x64 .f32 := Host.absf main_arg9
  let main_cst_12 : FVec F S_ .f32 := constant S_ .f32 0x7F800000#32
  let main_v35 : FVec F S10000x64 .f32 := broadcastInDim S10000x64 ![] bcast_S_S10000x64 main_cst_12
  let main_v36 : IVec S10000x64 1 := cmpf .olt main_v34 main_v35
  let main_c_13 : IVec S_ 1 := constantI S_ 1 1#1
  let main_v37 : IVec S_ 1 := (fun x v => Host.reduce IntOp.andi x v reducesTo_S10000x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg11
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg12
  let main_cst_18 : FVec F S_ .f32 := constant S_ .f32 0x7F800000#32
  let main_v50 : FVec F S16 .f32 := broadcastInDim S16 ![] bcast_S_S16 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x16 .f32) (main_arg8 : FVec F S16 .f32) (main_arg9 : FVec F S10000x64 .f32) (main_arg10 : FVec F S64 .f32) (main_arg11 : FVec F S64x16 .f32) (main_arg12 : FVec F S16 .f32) (main_arg13 : FVec F S32x64 .f32) (main_arg14 : FVec F S64 .f32) (main_arg15 : FVec F S64x1 .f32) (main_arg16 : FVec F S1 .f32) (main_arg17 : FVec F S10000 .f32) (main_arg18 : FVec F S10000 .f32) (main_v13 : IVec S_ 1) (main_v16 : IVec S5000x64 1) : IVec S_ 1 :=
  let main_c_5 : IVec S_ 1 := constantI S_ 1 1#1
  let main_v17 : IVec S_ 1 := (fun x v => Host.reduce IntOp.andi x v reducesTo_S5000x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S10000x5000 .f32) (main_arg1 : FVec F S5000x10000 .f32) (main_arg2 : IVec S1500000 32) (main_arg3 : IVec S1500000 32) (main_arg4 : FVec F S1500000 .f32) (main_arg5 : FVec F S5000x64 .f32) (main_arg6 : FVec F S64 .f32) (main_arg7 : FVec F S64x16 .f32) (main_arg8 : FVec F S16 .f32) (main_arg9 : FVec F S10000x64 .f32) (main_arg10 : FVec F S64 .f32) (main_arg11 : FVec F S64x16 .f32) (main_arg12 : FVec F S16 .f32) (main_arg13 : FVec F S32x64 .f32) (main_arg14 : FVec F S64 .f32) (main_arg15 : FVec F S64x1 .f32) (main_arg16 : FVec F S1 .f32) (main_arg17 : FVec F S10000 .f32) (main_arg18 : FVec F S10000 .f32) (main_arg19 : IVec S100000 32) (main_arg20 : IVec S100000 32) : IVec S_ 1 :=
  let main_v0 : FVec F S10000x5000 .f32 := Host.absf main_arg0
  let main_cst : FVec F S_ .f32 := constant S_ .f32 0x7F800000#32
  let main_v1 : FVec F S10000x5000 .f32 := broadcastInDim S10000x5000 ![] bcast_S_S10000x5000 main_cst
  let main_v2 : IVec S10000x5000 1 := cmpf .olt main_v0 main_v1
  let main_c : IVec S_ 1 := constantI S_ 1 1#1
  let main_v3 : IVec S_ 1 := (fun x v => Host.reduce IntOp.andi x v reducesTo_S10000x5000_S_d0_1 h_S_) main_v2 main_c
  let main_v4 : FVec F S5000x10000 .f32 := Host.absf main_arg1
  let main_cst_0 : FVec F S_ .f32 := constant S_ .f32 0x7F800000#32
  let main_v5 : FVec F S5000x10000 .f32 := broadcastInDim S5000x10000 ![] bcast_S_S5000x10000 main_cst_0
  let main_v6 : IVec S5000x10000 1 := cmpf .olt main_v4 main_v5
  let main_c_1 : IVec S_ 1 := constantI S_ 1 1#1
  let main_v7 : IVec S_ 1 := (fun x v => Host.reduce IntOp.andi x v reducesTo_S5000x10000_S_d0_1 h_S_) main_v6 main_c_1
  let main_v8 : IVec S_ 1 := andi main_v3 main_v7
  let main_v9 : FVec F S1500000 .f32 := Host.absf main_arg4
  let main_cst_2 : FVec F S_ .f32 := constant S_ .f32 0x7F800000#32
  let main_v10 : FVec F S1500000 .f32 := broadcastInDim S1500000 ![] bcast_S_S1500000 main_cst_2
  let main_v11 : IVec S1500000 1 := cmpf .olt main_v9 main_v10
  let main_c_3 : IVec S_ 1 := constantI S_ 1 1#1
  let main_v12 : IVec S_ 1 := (fun x v => Host.reduce IntOp.andi x v reducesTo_S1500000_S_d0 h_S_) main_v11 main_c_3
  let main_v13 : IVec S_ 1 := andi main_v8 main_v12
  let main_v14 : FVec F S5000x64 .f32 := Host.absf main_arg5
  let main_cst_4 : FVec F S_ .f32 := constant S_ .f32 0x7F800000#32
  let main_v15 : FVec F S5000x64 .f32 := broadcastInDim S5000x64 ![] bcast_S_S5000x64 main_cst_4
  let main_v16 : IVec S5000x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S10000x5000 : Shape := ⟨2, ![10000, 5000]⟩
abbrev S5000x10000 : Shape := ⟨2, ![5000, 10000]⟩
abbrev S1500000 : Shape := ⟨1, ![1500000]⟩
abbrev S5000x64 : Shape := ⟨2, ![5000, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S32x64 : Shape := ⟨2, ![32, 64]⟩
abbrev S64x1 : Shape := ⟨2, ![64, 1]⟩
abbrev S1 : Shape := ⟨1, ![1]⟩
abbrev S10000 : Shape := ⟨1, ![10000]⟩
abbrev S100000 : Shape := ⟨1, ![100000]⟩
abbrev S10000x16 : Shape := ⟨2, ![10000, 16]⟩
abbrev S400x5000 : Shape := ⟨2, ![400, 5000]⟩
abbrev S400x16 : Shape := ⟨2, ![400, 16]⟩
abbrev S400x64 : Shape := ⟨2, ![400, 64]⟩
abbrev S1x64 : Shape := ⟨2, ![1, 64]⟩
abbrev S1x16 : Shape := ⟨2, ![1, 16]⟩
abbrev S5000x16 : Shape := ⟨2, ![5000, 16]⟩
abbrev S200x10000 : Shape := ⟨2, ![200, 10000]⟩
abbrev S200x16 : Shape := ⟨2, ![200, 16]⟩
abbrev S200x64 : Shape := ⟨2, ![200, 64]⟩
abbrev S15000x16 : Shape := ⟨2, ![15000, 16]⟩
abbrev S1500000x1 : Shape := ⟨2, ![1500000, 1]⟩
abbrev S_ : Shape := ⟨0, ![]⟩
abbrev S1500000x16 : Shape := ⟨2, ![1500000, 16]⟩
abbrev S100000x1 : Shape := ⟨2, ![100000, 1]⟩
abbrev S100000x16 : Shape := ⟨2, ![100000, 16]⟩
abbrev S100000x32 : Shape := ⟨2, ![100000, 32]⟩
abbrev S2000x32 : Shape := ⟨2, ![2000, 32]⟩
abbrev S2000x1 : Shape := ⟨2, ![2000, 1]⟩
abbrev S2000x64 : Shape := ⟨2, ![2000, 64]⟩
abbrev S1x1 : Shape := ⟨2, ![1, 1]⟩

abbrev nBuf : Space → Nat
  | .hbm => 121
  | .vmem => 24
  | .smem => 0
  | _ => 0

abbrev bufTy : (tb : Table) → Fin (tcTables nBuf tb) → BufTy
  | .hbm, ⟨0, _⟩ => ⟨S10000x5000, .f32⟩
  | .hbm, ⟨1, _⟩ => ⟨S5000x10000, .f32⟩
  | .hbm, ⟨2, _⟩ => ⟨S1500000, .i32⟩
  | .hbm, ⟨3, _⟩ => ⟨S1500000, .i32⟩
  | .hbm, ⟨4, _⟩ => ⟨S1500000, .f32⟩
  | .hbm, ⟨5, _⟩ => ⟨S5000x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S10000x64, .f32⟩
  | .hbm, ⟨10, _⟩ => ⟨S64, .f32⟩
  | .hbm, ⟨11, _⟩ => ⟨S64x16, .f32⟩
  | .hbm, ⟨12, _⟩ => ⟨S16, .f32⟩
  | .hbm, ⟨13, _⟩ => ⟨S32x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S10000, .f32⟩
  | .hbm, ⟨18, _⟩ => ⟨S10000, .f32⟩
  | .hbm, ⟨19, _⟩ => ⟨S100000, .i32⟩
  | .hbm, ⟨20, _⟩ => ⟨S100000, .i32⟩
  | .hbm, ⟨21, _⟩ => ⟨S10000x16, .f32⟩
  | .hbm, ⟨22, _⟩ => ⟨S5000x16, .f32⟩
  | .hbm, ⟨23, _⟩ => ⟨S15000x16, .f32⟩
  | .hbm, ⟨24, _⟩ => ⟨S1500000x1, .f32⟩
  | .hbm, ⟨25, _⟩ => ⟨S_, .i32⟩
  | .hbm, ⟨26, _⟩ => ⟨S1500000, .i32⟩
  | .hbm, ⟨27, _⟩ => ⟨S1500000, .i1⟩
  | .hbm, ⟨28, _⟩ => ⟨S_, .i32⟩
  | .hbm, ⟨29, _⟩ => ⟨S1500000, .i32⟩
  | .hbm, ⟨30, _⟩ => ⟨S1500000, .i32⟩
  | .hbm, ⟨31, _⟩ => ⟨S1500000, .i32⟩
  | .hbm, ⟨32, _⟩ => ⟨S1500000x1, .i32⟩
  | .hbm, ⟨33, _⟩ => ⟨S1500000x16, .f32⟩
  | .hbm, ⟨34, _⟩ => ⟨S1500000x16, .f32⟩
  | .hbm, ⟨35, _⟩ => ⟨S1500000x16, .f32⟩
  | .hbm, ⟨36, _⟩ => ⟨S_, .f32⟩
  | .hbm, ⟨37, _⟩ => ⟨S15000x16, .f32⟩
  | .hbm, ⟨38, _⟩ => ⟨S1500000x1, .i32⟩
  | .hbm, ⟨39, _⟩ => ⟨S15000x16, .f32⟩
  | .hbm, ⟨40, _⟩ => ⟨S15000x16, .f32⟩
  | .hbm, ⟨41, _⟩ => ⟨S1500000x1, .f32⟩
  | .hbm, ⟨42, _⟩ => ⟨S_, .i32⟩
  | .hbm, ⟨43, _⟩ => ⟨S1500000, .i32⟩
  | .hbm, ⟨44, _⟩ => ⟨S1500000, .i1⟩
  | .hbm, ⟨45, _⟩ => ⟨S_, .i32⟩
  | .hbm, ⟨46, _⟩ => ⟨S1500000, .i32⟩
  | .hbm, ⟨47, _⟩ => ⟨S1500000, .i32⟩
  | .hbm, ⟨48, _⟩ => ⟨S1500000, .i32⟩
  | .hbm, ⟨49, _⟩ => ⟨S1500000x1, .i32⟩
  | .hbm, ⟨50, _⟩ => ⟨S1500000x16, .f32⟩
  | .hbm, ⟨51, _⟩ => ⟨S1500000x16, .f32⟩
  | .hbm, ⟨52, _⟩ => ⟨S1500000x16, .f32⟩
  | .hbm, ⟨53, _⟩ => ⟨S_, .f32⟩
  | .hbm, ⟨54, _⟩ => ⟨S15000x16, .f32⟩
  | .hbm, ⟨55, _⟩ => ⟨S1500000x1, .i32⟩
  | .hbm, ⟨56, _⟩ => ⟨S15000x16, .f32⟩
  | .hbm, ⟨57, _⟩ => ⟨S15000x16, .f32⟩
  | .hbm, ⟨58, _⟩ => ⟨S1500000x1, .f32⟩
  | .hbm, ⟨59, _⟩ => ⟨S_, .i32⟩
  | .hbm, ⟨60, _⟩ => ⟨S1500000, .i32⟩
  | .hbm, ⟨61, _⟩ => ⟨S1500000, .i1⟩
  | .hbm, ⟨62, _⟩ => ⟨S_, .i32⟩
  | .hbm, ⟨63, _⟩ => ⟨S1500000, .i32⟩
  | .hbm, ⟨64, _⟩ => ⟨S1500000, .i32⟩
  | .hbm, ⟨65, _⟩ => ⟨S1500000, .i32⟩
  | .hbm, ⟨66, _⟩ => ⟨S1500000x1, .i32⟩
  | .hbm, ⟨67, _⟩ => ⟨S1500000x16, .f32⟩
  | .hbm, ⟨68, _⟩ => ⟨S1500000x16, .f32⟩
  | .hbm, ⟨69, _⟩ => ⟨S1500000x16, .f32⟩
  | .hbm, ⟨70, _⟩ => ⟨S_, .f32⟩
  | .hbm, ⟨71, _⟩ => ⟨S15000x16, .f32⟩
  | .hbm, ⟨72, _⟩ => ⟨S1500000x1, .i32⟩
  | .hbm, ⟨73, _⟩ => ⟨S15000x16, .f32⟩
  | .hbm, ⟨74, _⟩ => ⟨S15000x16, .f32⟩
  | .hbm, ⟨75, _⟩ => ⟨S_, .f32⟩
  | .hbm, ⟨76, _⟩ => ⟨S15000x16, .f32⟩
  | .hbm, ⟨77, _⟩ => ⟨S15000x16, .f32⟩
  | .hbm, ⟨78, _⟩ => ⟨S10000x16, .f32⟩
  | .hbm, ⟨79, _⟩ => ⟨S5000x16, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S100000x16, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S100000x16, .f32⟩
  | .hbm, ⟨98, _⟩ => ⟨S100000x32, .f32⟩
  | .hbm, ⟨99, _⟩ => ⟨S100000x1, .f32⟩
  | .hbm, ⟨100, _⟩ => ⟨S100000, .f32⟩
  | .hbm, ⟨101, _⟩ => ⟨S_, .i32⟩
  | .hbm, ⟨102, _⟩ => ⟨S100000, .i32⟩
  | .hbm, ⟨103, _⟩ => ⟨S100000, .i1⟩
  | .hbm, ⟨104, _⟩ => ⟨S_, .i32⟩
  | .hbm, ⟨105, _⟩ => ⟨S100000, .i32⟩
  | .hbm, ⟨106, _⟩ => ⟨S100000, .i32⟩
  | .hbm, ⟨107, _⟩ => ⟨S100000, .i32⟩
  | .hbm, ⟨108, _⟩ => ⟨S100000x1, .i32⟩
  | .hbm, ⟨109, _⟩ => ⟨S100000, .f32⟩
  | .hbm, ⟨110, _⟩ => ⟨S100000, .f32⟩
  | .hbm, ⟨111, _⟩ => ⟨S_, .i32⟩
  | .hbm, ⟨112, _⟩ => ⟨S100000, .i32⟩
  | .hbm, ⟨113, _⟩ => ⟨S100000, .i1⟩
  | .hbm, ⟨114, _⟩ => ⟨S_, .i32⟩
  | .hbm, ⟨115, _⟩ => ⟨S100000, .i32⟩
  | .hbm, ⟨116, _⟩ => ⟨S100000, .i32⟩
  | .hbm, ⟨117, _⟩ => ⟨S100000, .i32⟩
  | .hbm, ⟨118, _⟩ => ⟨S100000x1, .i32⟩
  | .hbm, ⟨119, _⟩ => ⟨S100000, .f32⟩
  | .hbm, ⟨120, _⟩ => ⟨S100000, .f32⟩
  | .local _ .vmem, ⟨0, _⟩ => ⟨S400x5000, .f32⟩
  | .local _ .vmem, ⟨1, _⟩ => ⟨S400x5000, .f32⟩
  | .local _ .vmem, ⟨2, _⟩ => ⟨S5000x64, .f32⟩
  | .local _ .vmem, ⟨3, _⟩ => ⟨S64, .f32⟩
  | .local _ .vmem, ⟨4, _⟩ => ⟨S64x16, .f32⟩
  | .local _ .vmem, ⟨5, _⟩ => ⟨S16, .f32⟩
  | .local _ .vmem, ⟨6, _⟩ => ⟨S400x16, .f32⟩
  | .local _ .vmem, ⟨7, _⟩ => ⟨S400x16, .f32⟩
  | .local _ .vmem, ⟨8, _⟩ => ⟨S200x10000, .f32⟩
  | .local _ .vmem, ⟨9, _⟩ => ⟨S200x10000, .f32⟩
  | .local _ .vmem, ⟨10, _⟩ => ⟨S10000x64, .f32⟩
  | .local _ .vmem, ⟨11, _⟩ => ⟨S64, .f32⟩
  | .local _ .vmem, ⟨12, _⟩ => ⟨S64x16, .f32⟩
  | .local _ .vmem, ⟨13, _⟩ => ⟨S16, .f32⟩
  | .local _ .vmem, ⟨14, _⟩ => ⟨S200x16, .f32⟩
  | .local _ .vmem, ⟨15, _⟩ => ⟨S200x16, .f32⟩
  | .local _ .vmem, ⟨16, _⟩ => ⟨S2000x32, .f32⟩
  | .local _ .vmem, ⟨17, _⟩ => ⟨S2000x32, .f32⟩
  | .local _ .vmem, ⟨18, _⟩ => ⟨S32x64, .f32⟩
  | .local _ .vmem, ⟨19, _⟩ => ⟨S64, .f32⟩
  | .local _ .vmem, ⟨20, _⟩ => ⟨S64x1, .f32⟩
  | .local _ .vmem, ⟨21, _⟩ => ⟨S1, .f32⟩
  | .local _ .vmem, ⟨22, _⟩ => ⟨S2000x1, .f32⟩
  | .local _ .vmem, ⟨23, _⟩ => ⟨S2000x1, .f32⟩
  | _, _ => ⟨S10000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_8 : Ref sig .tc := ⟨.hbm, 80, rfl⟩
abbrev main_v49 : Ref sig .tc := ⟨.hbm, 81, rfl⟩
abbrev main_v50 : Ref sig .tc := ⟨.hbm, 82, rfl⟩
abbrev main_c_9 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_12 : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_14 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S200x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S400x5000_S400x5000_0_0 : ∀ a, (![0, 0] : Fin 2 → Nat) a + S400x5000.size a ≤ S400x5000.size a
  h_S400x5000 : 0 < S400x5000.numel
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  inb_S64_S64_0 : ∀ a, (![0] : Fin 1 → Nat) a + S64.size a ≤ S64.size a
  h_S64 : 0 < S64.numel
  shapeCasts_S64_S1x64 : S64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S200x10000_S200x10000_0_0 : ∀ a, (![0, 0] : Fin 2 → Nat) a + S200x10000.size a ≤ S200x10000.size a
  h_S200x10000 : 0 < S200x10000.numel
  inb_S10000x64_S10000x64_0_0 : ∀ a, (![0, 0] : Fin 2 → Nat) a + S10000x64.size a ≤ S10000x64.size a
  h_S10000x64 : 0 < S10000x64.numel
  broadcasts_S1x64_S200x64 : S1x64.Broadcasts S200x64
  broadcasts_S1x16_S200x16 : S1x16.Broadcasts S200x16
  inb_S200x16_S200x16_0_0 : ∀ a, (![0, 0] : Fin 2 → Nat) a + S200x16.size a ≤ S200x16.size a
  h_S200x16 : 0 < S200x16.numel
  concatenates_S10000x16_S5000x16_S15000x16_d0 : Shape.Concatenates [S10000x16, S5000x16] S15000x16 0
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S1500000x1_S1500000x16_0_1 : S1500000x1.BroadcastsInDim S1500000x16 (![0, 1] : Fin 2 → Fin S1500000x16.rank)
  bcast_S_S15000x16 : S_.BroadcastsInDim S15000x16 (![] : Fin 0 → Fin S15000x16.rank)
  slices_S15000x16_S10000x16_0_0 : S15000x16.Slices ![0, 0] S10000x16
  slices_S15000x16_S5000x16_10000_0 : S15000x16.Slices ![10000, 0] S5000x16
  bcast_S_S100000 : S_.BroadcastsInDim S100000 (![] : Fin 0 → Fin S100000.rank)
  bcast_S100000_S100000x1_0 : S100000.BroadcastsInDim S100000x1 (![0] : Fin 1 → Fin S100000x1.rank)
  concatenates_S100000x16_S100000x16_S100000x32_d1 : Shape.Concatenates [S100000x16, S100000x16] S100000x32 1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  dot_S400x5000_S5000x64_S400x64_1_0_0_1_n_n_wf : DotDims.WF S400x5000 S5000x64 S400x64 [1] [0] [0] [1] [] []
  dot_S400x64_S64x16_S400x16_1_0_0_1_n_n_wf : DotDims.WF S400x64 S64x16 S400x16 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  gather_S15000x16_S1500000x1_S1500000x16_1_0_n_n_0_1_116_wf : GatherDims.WF S15000x16 S1500000x1 S1500000x16 [1] [0] [] [0] [] 1 ![1, 16]
  scatter_S15000x16_S1500000x1_S1500000x16_1_0_0_1_wf : ScatterDims.WF S15000x16 S1500000x1 S1500000x16 [1] [0] [0] 1
  gather_S10000x16_S100000x1_S100000x16_1_0_n_n_0_1_116_wf : GatherDims.WF S10000x16 S100000x1 S100000x16 [1] [0] [] [0] [] 1 ![1, 16]
  gather_S5000x16_S100000x1_S100000x16_1_0_n_n_0_1_116_wf : GatherDims.WF S5000x16 S100000x1 S100000x16 [1] [0] [] [0] [] 1 ![1, 16]
  dot_S2000x32_S32x64_S2000x64_1_0_0_1_n_n_wf : DotDims.WF S2000x32 S32x64 S2000x64 [1] [0] [0] [1] [] []
  dot_S2000x64_S64x1_S2000x1_1_0_0_1_n_n_wf : DotDims.WF S2000x64 S64x1 S2000x1 [1] [0] [0] [1] [] []
  gather_S10000_S100000x1_S100000_n_0_n_n_0_1_1_wf : GatherDims.WF S10000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5000.size a ≤ S10000x5000.size a
  hwx0_0 : ∀ i : grid0.Coords, EltTy.bits .f32 = 32 ∨ (Rect.block (s := S10000x5000) S400x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S5000x64.size a
  hwx0_1 : ∀ i : grid0.Coords, EltTy.bits .f32 = 32 ∨ (Rect.block (s := S5000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S5000x10000.size a
  hwx1_0 : ∀ i : grid1.Coords, EltTy.bits .f32 = 32 ∨ (Rect.block (s := S5000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x16.size a ≤ S5000x16.size a
  hwx1_5 : ∀ i : grid1.Coords, EltTy.bits .f32 = 32 ∨ (Rect.block (s := S5000x16) S200x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)

variable [Facts₀]

def dot_S400x5000_S5000x64_S400x64_1_0_0_1_n_n : DotDims S400x5000 S5000x64 S400x64 where
  lhsContracting := [1]
  rhsContracting := [0]
  lhsNonContracting := [0]
  rhsNonContracting := [1]
  lhsBatch := []
  rhsBatch := []
  wf := dot_S400x5000_S5000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def gather_S15000x16_S1500000x1_S1500000x16_1_0_n_n_0_1_116 : GatherDims S15000x16 S1500000x1 S1500000x16 where
  offsetDims := [1]
  collapsedSliceDims := [0]
  operandBatchingDims := []
  startIndicesBatchingDims := []
  startIndexMap := [0]
  indexVectorDim := 1
  sliceSizes := ![1, 16]
  wf := gather_S15000x16_S1500000x1_S1500000x16_1_0_n_n_0_1_116_wf
def scatter_S15000x16_S1500000x1_S1500000x16_1_0_0_1 : ScatterDims S15000x16 S1500000x1 S1500000x16 where
  updateWindowDims := [1]
  insertedWindowDims := [0]
  scatterDimsToOperandDims := [0]
  indexVectorDim := 1
  wf := scatter_S15000x16_S1500000x1_S1500000x16_1_0_0_1_wf
def gather_S10000x16_S100000x1_S100000x16_1_0_n_n_0_1_116 : GatherDims S10000x16 S100000x1 S100000x16 where
  offsetDims := [1]
  collapsedSliceDims := [0]
  operandBatchingDims := []
  startIndicesBatchingDims := []
  startIndexMap := [0]
  indexVectorDim := 1
  sliceSizes := ![1, 16]
  wf := gather_S10000x16_S100000x1_S100000x16_1_0_n_n_0_1_116_wf
def gather_S5000x16_S100000x1_S100000x16_1_0_n_n_0_1_116 : GatherDims S5000x16 S100000x1 S100000x16 where
  offsetDims := [1]
  collapsedSliceDims := [0]
  operandBatchingDims := []
  startIndicesBatchingDims := []
  startIndexMap := [0]
  indexVectorDim := 1
  sliceSizes := ![1, 16]
  wf := gather_S5000x16_S100000x1_S100000x16_1_0_n_n_0_1_116_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S10000_S100000x1_S100000_n_0_n_n_0_1_1 : GatherDims S10000 S100000x1 S100000 where
  offsetDims := []
  collapsedSliceDims := [0]
  operandBatchingDims := []
  startIndicesBatchingDims := []
  startIndexMap := [0]
  indexVectorDim := 1
  sliceSizes := ![1]
  wf := gather_S10000_S100000x1_S100000_n_0_n_n_0_1_1_wf

abbrev win0_0 : Pipeline.Window sig grid0 :=
  Pipeline.Window.ofSpec (Memref.whole main_arg0) S400x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S5000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S200x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S2000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x5000 : Shape := ⟨2, ![10000, 5000]⟩
abbrev S5000x10000 : Shape := ⟨2, ![5000, 10000]⟩
abbrev S1500000 : Shape := ⟨1, ![1500000]⟩
abbrev S5000x64 : Shape := ⟨2, ![5000, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S32x64 : Shape := ⟨2, ![32, 64]⟩
abbrev S64x1 : Shape := ⟨2, ![64, 1]⟩
abbrev S1 : Shape := ⟨1, ![1]⟩
abbrev S10000 : Shape := ⟨1, ![10000]⟩
abbrev S100000 : Shape := ⟨1, ![100000]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S5000x16 : Shape := ⟨2, ![5000, 16]⟩
abbrev S15000x16 : Shape := ⟨2, ![15000, 16]⟩
abbrev S1500000x1 : Shape := ⟨2, ![1500000, 1]⟩
abbrev S1500000x16 : Shape := ⟨2, ![1500000, 16]⟩
abbrev S100000x1 : Shape := ⟨2, ![100000, 1]⟩
abbrev S100000x16 : Shape := ⟨2, ![100000, 16]⟩
abbrev S100000x32 : Shape := ⟨2, ![100000, 32]⟩
abbrev S100000x64 : Shape := ⟨2, ![100000, 64]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S10000x5000, .f32⟩
  | 1 => ⟨S5000x10000, .f32⟩
  | 2 => ⟨S1500000, .i32⟩
  | 3 => ⟨S1500000, .i32⟩
  | 4 => ⟨S1500000, .f32⟩
  | 5 => ⟨S5000x64, .f32⟩
  | 6 => ⟨S64, .f32⟩
  | 7 => ⟨S64x16, .f32⟩
  | 8 => ⟨S16, .f32⟩
  | 9 => ⟨S10000x64, .f32⟩
  | 10 => ⟨S64, .f32⟩
  | 11 => ⟨S64x16, .f32⟩
  | 12 => ⟨S16, .f32⟩
  | 13 => ⟨S32x64, .f32⟩
  | 14 => ⟨S64, .f32⟩
  | 15 => ⟨S64x1, .f32⟩
  | 16 => ⟨S1, .f32⟩
  | 17 => ⟨S10000, .f32⟩
  | 18 => ⟨S10000, .f32⟩
  | 19 => ⟨S100000, .i32⟩
  | 20 => ⟨S100000, .i32⟩
  | 21 => ⟨S10000x64, .f32⟩
  | 22 => ⟨S1x64, .f32⟩
  | 23 => ⟨S10000x64, .f32⟩
  | 24 => ⟨S10000x64, .f32⟩
  | 25 => ⟨S_, .f32⟩
  | 26 => ⟨S10000x64, .f32⟩
  | 27 => ⟨S10000x64, .f32⟩
  | 28 => ⟨S10000x16, .f32⟩
  | 29 => ⟨S1x16, .f32⟩
  | 30 => ⟨S10000x16, .f32⟩
  | 31 => ⟨S10000x16, .f32⟩
  | 32 => ⟨S_, .f32⟩
  | 33 => ⟨S10000x16, .f32⟩
  | 34 => ⟨S10000x16, .f32⟩
  | 35 => ⟨S5000x64, .f32⟩
  | 36 => ⟨S1x64, .f32⟩
  | 37 => ⟨S5000x64, .f32⟩
  | 38 => ⟨S5000x64, .f32⟩
  | 39 => ⟨S_, .f32⟩
  | 40 => ⟨S5000x64, .f32⟩
  | 41 => ⟨S5000x64, .f32⟩
  | 42 => ⟨S5000x16, .f32⟩
  | 43 => ⟨S1x16, .f32⟩
  | 44 => ⟨S5000x16, .f32⟩
  | 45 => ⟨S5000x16, .f32⟩
  | 46 => ⟨S_, .f32⟩
  | 47 => ⟨S5000x16, .f32⟩
  | 48 => ⟨S5000x16, .f32⟩
  | 49 => ⟨S15000x16, .f32⟩
  | 50 => ⟨S1500000x1, .f32⟩
  | 51 => ⟨S_, .i32⟩
  | 52 => ⟨S1500000, .i32⟩
  | 53 => ⟨S1500000, .i1⟩
  | 54 => ⟨S_, .i32⟩
  | 55 => ⟨S1500000, .i32⟩
  | 56 => ⟨S1500000, .i32⟩
  | 57 => ⟨S1500000, .i32⟩
  | 58 => ⟨S1500000x1, .i32⟩
  | 59 => ⟨S1500000x16, .f32⟩
  | 60 => ⟨S1500000x16, .f32⟩
  | 61 => ⟨S1500000x16, .f32⟩
  | 62 => ⟨S_, .f32⟩
  | 63 => ⟨S15000x16, .f32⟩
  | 64 => ⟨S1500000x1, .i32⟩
  | 65 => ⟨S15000x16, .f32⟩
  | 66 => ⟨S15000x16, .f32⟩
  | 67 => ⟨S1500000x1, .f32⟩
  | 68 => ⟨S_, .i32⟩
  | 69 => ⟨S1500000, .i32⟩
  | 70 => ⟨S1500000, .i1⟩
  | 71 => ⟨S_, .i32⟩
  | 72 => ⟨S1500000, .i32⟩
  | 73 => ⟨S1500000, .i32⟩
  | 74 => ⟨S1500000, .i32⟩
  | 75 => ⟨S1500000x1, .i32⟩
  | 76 => ⟨S1500000x16, .f32⟩
  | 77 => ⟨S1500000x16, .f32⟩
  | 78 => ⟨S1500000x16, .f32⟩
  | 79 => ⟨S_, .f32⟩
  | 80 => ⟨S15000x16, .f32⟩
  | 81 => ⟨S1500000x1, .i32⟩
  | 82 => ⟨S15000x16, .f32⟩
  | 83 => ⟨S15000x16, .f32⟩
  | 84 => ⟨S1500000x1, .f32⟩
  | 85 => ⟨S_, .i32⟩
  | 86 => ⟨S1500000, .i32⟩
  | 87 => ⟨S1500000, .i1⟩
  | 88 => ⟨S_, .i32⟩
  | 89 => ⟨S1500000, .i32⟩
  | 90 => ⟨S1500000, .i32⟩
  | 91 => ⟨S1500000, .i32⟩
  | 92 => ⟨S1500000x1, .i32⟩
  | 93 => ⟨S1500000x16, .f32⟩
  | 94 => ⟨S1500000x16, .f32⟩
  | 95 => ⟨S1500000x16, .f32⟩
  | 96 => ⟨S_, .f32⟩
  | 97 => ⟨S15000x16, .f32⟩
  | 98 => ⟨S1500000x1, .i32⟩
  | 99 => ⟨S15000x16, .f32⟩
  | 100 => ⟨S15000x16, .f32⟩
  | 101 => ⟨S_, .f32⟩
  | 102 => ⟨S15000x16, .f32⟩
  | 103 => ⟨S15000x16, .f32⟩
  | 104 => ⟨S10000x16, .f32⟩
  | 105 => ⟨S5000x16, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x16, .f32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x16, .f32⟩
  | 124 => ⟨S100000x32, .f32⟩
  | 125 => ⟨S100000x64, .f32⟩
  | 126 => ⟨S1x64, .f32⟩
  | 127 => ⟨S100000x64, .f32⟩
  | _ => ⟨S10000x5000, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x1, .f32⟩
  | 5 => ⟨S1x1, .f32⟩
  | 6 => ⟨S100000x1, .f32⟩
  | 7 => ⟨S100000x1, .f32⟩
  | 8 => ⟨S_, .f32⟩
  | 9 => ⟨S100000x1, .f32⟩
  | 10 => ⟨S100000x1, .f32⟩
  | 11 => ⟨S100000, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .f32⟩
  | 21 => ⟨S100000, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000, .f32⟩
  | 31 => ⟨S100000, .f32⟩
  | _ => ⟨S10000x5000, .f32⟩

abbrev hbmTy (i : Nat) : BufTy := match i / 128 with
  | 0 => hbmTy0_0 i
  | 1 => hbmTy0_1 i
  | _ => ⟨S10000x5000, .f32⟩

abbrev bufTy : (tb : Table) → Fin (tcTables nBuf tb) → BufTy
  | .hbm, ⟨i, _⟩ => hbmTy i
  | _, _ => ⟨S10000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_cst : Ref sig .tc := ⟨.hbm, 25, rfl⟩
abbrev main_call0_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_call1_cst : Ref sig .tc := ⟨.hbm, 32, rfl⟩
abbrev main_call1_v0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call2_cst : Ref sig .tc := ⟨.hbm, 39, rfl⟩
abbrev main_call2_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call3_cst : Ref sig .tc := ⟨.hbm, 46, rfl⟩
abbrev main_call3_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c : Ref sig .tc := ⟨.hbm, 51, rfl⟩
abbrev main_v22 : Ref sig .tc := ⟨.hbm, 52, rfl⟩
abbrev main_v23 : Ref sig .tc := ⟨.hbm, 53, rfl⟩
abbrev main_c_0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_1 : Ref sig .tc := ⟨.hbm, 68, rfl⟩
abbrev main_v36 : Ref sig .tc := ⟨.hbm, 69, rfl⟩
abbrev main_v37 : Ref sig .tc := ⟨.hbm, 70, rfl⟩
abbrev main_c_2 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_3 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_4 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_6 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_7 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_8 : Ref sig .tc := ⟨.hbm, 106, rfl⟩
abbrev main_v67 : Ref sig .tc := ⟨.hbm, 107, rfl⟩
abbrev main_v68 : Ref sig .tc := ⟨.hbm, 108, rfl⟩
abbrev main_c_9 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_10 : Ref sig .tc := ⟨.hbm, 115, rfl⟩
abbrev main_v74 : Ref sig .tc := ⟨.hbm, 116, rfl⟩
abbrev main_v75 : Ref sig .tc := ⟨.hbm, 117, rfl⟩
abbrev main_c_11 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_call4_cst : Ref sig .tc := ⟨.hbm, 129, rfl⟩
abbrev main_call4_v0 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_call5_cst : Ref sig .tc := ⟨.hbm, 136, rfl⟩
abbrev main_call5_v0 : Ref sig .tc := ⟨.hbm, 137, rfl⟩
abbrev main_v91 : Ref sig .tc := ⟨.hbm, 138, rfl⟩
abbrev main_v92 : Ref sig .tc := ⟨.hbm, 139, rfl⟩
abbrev main_c_12 : Ref sig .tc := ⟨.hbm, 140, rfl⟩
abbrev main_v93 : Ref sig .tc := ⟨.hbm, 141, rfl⟩
abbrev main_v94 : Ref sig .tc := ⟨.hbm, 142, rfl⟩
abbrev main_c_13 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_c_14 : Ref sig .tc := ⟨.hbm, 150, rfl⟩
abbrev main_v101 : Ref sig .tc := ⟨.hbm, 151, rfl⟩
abbrev main_v102 : Ref sig .tc := ⟨.hbm, 152, rfl⟩
abbrev main_c_15 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S1x64_S5000x64_0_1 : S1x64.BroadcastsInDim S5000x64 (![0, 1] : Fin 2 → Fin S5000x64.rank)
  bcast_S_S5000x64 : S_.BroadcastsInDim S5000x64 (![] : Fin 0 → Fin S5000x64.rank)
  bcast_S1x16_S5000x16_0_1 : S1x16.BroadcastsInDim S5000x16 (![0, 1] : Fin 2 → Fin S5000x16.rank)
  bcast_S_S5000x16 : S_.BroadcastsInDim S5000x16 (![] : Fin 0 → Fin S5000x16.rank)
  concatenates_S10000x16_S5000x16_S15000x16_d0 : Shape.Concatenates [S10000x16, S5000x16] S15000x16 0
  bcast_S1500000_S1500000x1_0 : S1500000.BroadcastsInDim S1500000x1 (![0] : Fin 1 → Fin S1500000x1.rank)
  bcast_S_S1500000 : S_.BroadcastsInDim S1500000 (![] : Fin 0 → Fin S1500000.rank)
  bcast_S1500000x1_S1500000x16_0_1 : S1500000x1.BroadcastsInDim S1500000x16 (![0, 1] : Fin 2 → Fin S1500000x16.rank)
  bcast_S_S15000x16 : S_.BroadcastsInDim S15000x16 (![] : Fin 0 → Fin S15000x16.rank)
  slices_S15000x16_S10000x16_0_0 : S15000x16.Slices ![0, 0] S10000x16
  slices_S15000x16_S5000x16_10000_0 : S15000x16.Slices ![10000, 0] S5000x16
  bcast_S_S100000 : S_.BroadcastsInDim S100000 (![] : Fin 0 → Fin S100000.rank)
  bcast_S100000_S100000x1_0 : S100000.BroadcastsInDim S100000x1 (![0] : Fin 1 → Fin S100000x1.rank)
  concatenates_S100000x16_S100000x16_S100000x32_d1 : Shape.Concatenates [S100000x16, S100000x16] S100000x32 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S10000x5000_S5000x64_S10000x64_1_0_0_1_n_n_wf : DotDims.WF S10000x5000 S5000x64 S10000x64 [1] [0] [0] [1] [] []
  dot_S10000x64_S64x16_S10000x16_1_0_0_1_n_n_wf : DotDims.WF S10000x64 S64x16 S10000x16 [1] [0] [0] [1] [] []
  dot_S5000x10000_S10000x64_S5000x64_1_0_0_1_n_n_wf : DotDims.WF S5000x10000 S10000x64 S5000x64 [1] [0] [0] [1] [] []
  dot_S5000x64_S64x16_S5000x16_1_0_0_1_n_n_wf : DotDims.WF S5000x64 S64x16 S5000x16 [1] [0] [0] [1] [] []
  gather_S15000x16_S1500000x1_S1500000x16_1_0_n_n_0_1_116_wf : GatherDims.WF S15000x16 S1500000x1 S1500000x16 [1] [0] [] [0] [] 1 ![1, 16]
  scatter_S15000x16_S1500000x1_S1500000x16_1_0_0_1_wf : ScatterDims.WF S15000x16 S1500000x1 S1500000x16 [1] [0] [0] 1
  gather_S10000x16_S100000x1_S100000x16_1_0_n_n_0_1_116_wf : GatherDims.WF S10000x16 S100000x1 S100000x16 [1] [0] [] [0] [] 1 ![1, 16]
  gather_S5000x16_S100000x1_S100000x16_1_0_n_n_0_1_116_wf : GatherDims.WF S5000x16 S100000x1 S100000x16 [1] [0] [] [0] [] 1 ![1, 16]
  dot_S100000x32_S32x64_S100000x64_1_0_0_1_n_n_wf : DotDims.WF S100000x32 S32x64 S100000x64 [1] [0] [0] [1] [] []
  dot_S100000x64_S64x1_S100000x1_1_0_0_1_n_n_wf : DotDims.WF S100000x64 S64x1 S100000x1 [1] [0] [0] [1] [] []
  gather_S10000_S100000x1_S100000_n_0_n_n_0_1_1_wf : GatherDims.WF S10000 S100000x1 S100000 [] [0] [] [0] [] 1 ![1]

variable [Facts₀]

def dot_S10000x5000_S5000x64_S10000x64_1_0_0_1_n_n : DotDims S10000x5000 S5000x64 S10000x64 where
  lhsContracting := [1]
  rhsContracting := [0]
  lhsNonContracting := [0]
  rhsNonContracting := [1]
  lhsBatch := []
  rhsBatch := []
  wf := dot_S10000x5000_S5000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S5000x10000_S10000x64_S5000x64_1_0_0_1_n_n : DotDims S5000x10000 S10000x64 S5000x64 where
  lhsContracting := [1]
  rhsContracting := [0]
  lhsNonContracting := [0]
  rhsNonContracting := [1]
  lhsBatch := []
  rhsBatch := []
  wf := dot_S5000x10000_S10000x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S15000x16_S1500000x1_S1500000x16_1_0_n_n_0_1_116 : GatherDims S15000x16 S1500000x1 S1500000x16 where
  offsetDims := [1]
  collapsedSliceDims := [0]
  operandBatchingDims := []
  startIndicesBatchingDims := []
  startIndexMap := [0]
  indexVectorDim := 1
  sliceSizes := ![1, 16]
  wf := gather_S15000x16_S1500000x1_S1500000x16_1_0_n_n_0_1_116_wf
def scatter_S15000x16_S1500000x1_S1500000x16_1_0_0_1 : ScatterDims S15000x16 S1500000x1 S1500000x16 where
  updateWindowDims := [1]
  insertedWindowDims := [0]
  scatterDimsToOperandDims := [0]
  indexVectorDim := 1
  wf := scatter_S15000x16_S1500000x1_S1500000x16_1_0_0_1_wf
def gather_S10000x16_S100000x1_S100000x16_1_0_n_n_0_1_116 : GatherDims S10000x16 S100000x1 S100000x16 where
  offsetDims := [1]
  collapsedSliceDims := [0]
  operandBatchingDims := []
  startIndicesBatchingDims := []
  startIndexMap := [0]
  indexVectorDim := 1
  sliceSizes := ![1, 16]
  wf := gather_S10000x16_S100000x1_S100000x16_1_0_n_n_0_1_116_wf
def gather_S5000x16_S100000x1_S100000x16_1_0_n_n_0_1_116 : GatherDims S5000x16 S100000x1 S100000x16 where
  offsetDims := [1]
  collapsedSliceDims := [0]
  operandBatchingDims := []
  startIndicesBatchingDims := []
  startIndexMap := [0]
  indexVectorDim := 1
  sliceSizes := ![1, 16]
  wf := gather_S5000x16_S100000x1_S100000x16_1_0_n_n_0_1_116_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S10000_S100000x1_S100000_n_0_n_n_0_1_1 : GatherDims S10000 S100000x1 S100000 where
  offsetDims := []
  collapsedSliceDims := [0]
  operandBatchingDims := []
  startIndicesBatchingDims := []
  startIndexMap := [0]
  indexVectorDim := 1
  sliceSizes := ![1]
  wf := gather_S10000_S100000x1_S100000_n_0_n_n_0_1_1_wf

class Facts : Prop extends Facts₀ where

variable [Facts]
-- ==== Proof.KRun.lean ====
/-
  The run of the whole program, naming what it leaves in its result buffer.

  The program's entry point is three tiled calls among two stretches of host operations. Run on every core from any
  memory with zero counters it terminates without fault, and in every final state the result buffer holds the last
  boundary's contents of the fold of buffer contents through the five segments, while each of the twenty-one argument
  buffers holds what it held at launch.
-/
import proofs.«167168_j47227460387322_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the entry point on all cores, from any memory with zero counters, terminates
    without fault; what is read off the last thread state: the result buffer holds the fold's final contents
    `Gen.W5 m ρ c` at the result's reference (the thread's last assertion holds every unscoped buffer at the last
    boundary's contents, and the result buffer is one of them), and each argument buffer still holds its launch
    contents (the fold at an argument walks back to the launch memory). -/
theorem run_result : θ_run defs (onTc (τ := τ) (main (F := F))) ⟨m, fun _ => 0, ρ⟩ (fun r => ∀ c : Dev nD,
      r.2.mem ((c.tc : Thread nD τ).loc main_v81) = Gen.W5 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v81 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c)⟩)

end Cert.KernelIdeal.Val

end
-- ==== Proof.KHost.lean ====
/-
  The host operations of the program around its three tiled calls, as two pure functions.

  `mid`: the two encoders' outputs stacked into one table of 15000 rows; three rounds of propagation over the edge
  list — each round gathers the rows named by the edge's column index (a negative index wraps by the table's height),
  scales each gathered row by the edge's value and adds it into the row named by the edge's row index, from a zero
  table —; the table plus the three rounds' results, divided by four; the first 10000 rows gathered at the user indices
  and the last 5000 at the item indices (negative indices wrap), joined side by side into 32 columns.

  `tail`: the last call's single column recast as a vector, times the gathered scales, plus the gathered shifts.
-/
import proofs.«167168_j47227460387322_1_alg».proof.Proof.Gen.KernelIdeal

noncomputable section

namespace Cert.KernelIdeal.Val

open Cert.KernelIdeal Cert.KernelIdeal.Facts₀ Idealize.ShloMosaic

variable {F : FTy → Type} [FloatOps F]

/-- An index vector with its negative entries shifted up by `n`. -/
def wrapE (n : BitVec 32) (x : (⟨S1500000, .i32⟩ : BufTy).Contents (Elt F)) : (⟨S1500000, .i32⟩ : BufTy).Contents (Elt F) :=
  select (cmpi .slt x (broadcastInDim S1500000 ![] bcast_S_S1500000 (constantI S_ 32 0#32)))
    (addi x (broadcastInDim S1500000 ![] bcast_S_S1500000 (constantI S_ 32 n))) x

/-- The same for a batch index vector. -/
def wrapB (n : BitVec 32) (x : (⟨S100000, .i32⟩ : BufTy).Contents (Elt F)) : (⟨S100000, .i32⟩ : BufTy).Contents (Elt F) :=
  select (cmpi .slt x (broadcastInDim S100000 ![] bcast_S_S100000 (constantI S_ 32 0#32)))
    (addi x (broadcastInDim S100000 ![] bcast_S_S100000 (constantI S_ 32 n))) x

/-- One round of propagation of the table `e` along the edges. -/
def hop (rows cols : (⟨S1500000, .i32⟩ : BufTy).Contents (Elt F)) (vals : (⟨S1500000, .f32⟩ : BufTy).Contents (Elt F))
    (e : (⟨S15000x16, .f32⟩ : BufTy).Contents (Elt F)) : (⟨S15000x16, .f32⟩ : BufTy).Contents (Elt F) :=
  Host.scatterAdd scatter_S15000x16_S1500000x1_S1500000x16_1_0_0_1
    (broadcastInDim S15000x16 ![] bcast_S_S15000x16 (constant S_ .f32 0x00000000#32))
    (broadcastInDim S1500000x1 ![0] bcast_S1500000_S1500000x1_0 rows)
    (mulf (broadcastInDim S1500000x16 ![0, 1] bcast_S1500000x1_S1500000x16_0_1 (broadcastInDim S1500000x1 ![0] bcast_S1500000_S1500000x1_0 vals))
      (Host.gather gather_S15000x16_S1500000x1_S1500000x16_1_0_n_n_0_1_116 e
        (broadcastInDim S1500000x1 ![0] bcast_S1500000_S1500000x1_0 (wrapE 15000#32 cols))))

/-- From the two encoders' outputs to the 32-column table the last call reads. -/
def mid (u : (⟨S10000x16, .f32⟩ : BufTy).Contents (Elt F)) (v : (⟨S5000x16, .f32⟩ : BufTy).Contents (Elt F))
    (rows cols : (⟨S1500000, .i32⟩ : BufTy).Contents (Elt F)) (vals : (⟨S1500000, .f32⟩ : BufTy).Contents (Elt F))
    (us it : (⟨S100000, .i32⟩ : BufTy).Contents (Elt F)) : (⟨S100000x32, .f32⟩ : BufTy).Contents (Elt F) :=
  have emb : (⟨S15000x16, .f32⟩ : BufTy).Contents (Elt F) :=
    concatenate S15000x16 0 [⟨S10000x16, u⟩, ⟨S5000x16, v⟩] concatenates_S10000x16_S5000x16_S15000x16_d0
  have e1 := hop rows cols vals emb
  have e2 := hop rows cols vals e1
  have e3 := hop rows cols vals e2
  have light : (⟨S15000x16, .f32⟩ : BufTy).Contents (Elt F) :=
    Host.divf (addf (addf (addf emb e1) e2) e3) (broadcastInDim S15000x16 ![] bcast_S_S15000x16 (constant S_ .f32 0x40800000#32))
  concatenate S100000x32 1
    [⟨S100000x16, Host.gather gather_S10000x16_S100000x1_S100000x16_1_0_n_n_0_1_116
        (extractStridedSlice S10000x16 ![0, 0] light slices_S15000x16_S10000x16_0_0)
        (broadcastInDim S100000x1 ![0] bcast_S100000_S100000x1_0 (wrapB 10000#32 us))⟩,
     ⟨S100000x16, Host.gather gather_S5000x16_S100000x1_S100000x16_1_0_n_n_0_1_116
        (extractStridedSlice S5000x16 ![10000, 0] light slices_S15000x16_S5000x16_10000_0)
        (broadcastInDim S100000x1 ![0] bcast_S100000_S100000x1_0 (wrapB 5000#32 it))⟩]
    concatenates_S100000x16_S100000x16_S100000x32_d1

/-- From the last call's column to the program's result. -/
def tail (y : (⟨S100000x1, .f32⟩ : BufTy).Contents (Elt F)) (means stds : (⟨S10000, .f32⟩ : BufTy).Contents (Elt F))
    (us : (⟨S100000, .i32⟩ : BufTy).Contents (Elt F)) : (⟨S100000, .f32⟩ : BufTy).Contents (Elt F) :=
  addf
    (mulf (shapeCast S100000 y shapeCasts_S100000x1_S100000)
      (Host.gather gather_S10000_S100000x1_S100000_n_0_n_n_0_1_1 stds
        (broadcastInDim S100000x1 ![0] bcast_S100000_S100000x1_0 (wrapB 10000#32 us))))
    (Host.gather gather_S10000_S100000x1_S100000_n_0_n_n_0_1_1 means
      (broadcastInDim S100000x1 ![0] bcast_S100000_S100000x1_0 (wrapB 10000#32 us)))

end Cert.KernelIdeal.Val

end
-- ==== Proof.KFold.lean ====
/-
  The buffer contents at the program's segment boundaries, read back to the launch memory.

  The program is five segments: two tiled calls, a stretch of host operations, a third tiled call, a last stretch of
  host operations. The contents of the buffers at each boundary are a fold from the launch memory: a tiled call
  replaces its output array by what its write-backs leave and keeps every other buffer, a host operation replaces its
  result buffer by its function's value at its operands' contents. Here the fold is evaluated at the buffers that
  matter: the program's result is the last stretch applied to the third call's output and three arguments; the third
  call's first input is the middle stretch applied to the first two calls' outputs and five arguments; each call's
  output array is what its write-backs leave; and each call's other inputs are arguments, still at their launch
  contents when the call is entered, since nothing before it writes them.
-/
import proofs.«167168_j47227460387322_1_alg».proof.Proof.KHost
import proofs.«167168_j47227460387322_1_alg».proof.Proof.Gen.KernelIdeal.Frame

set_option maxRecDepth 16384

noncomputable section

namespace Cert.KernelIdeal.Val

open Cert.KernelIdeal
open Idealize.ShloMosaic Idealize.ShloMosaic.TcCoe

variable {F : FTy → Type} [FloatOps F]
variable (m : (ℓ : Loc nD τ sig) → Buf (Elt F) ℓ) (ρ : Dev nD → PrngReg)

/-- None of the operations of a literal list writes the buffer at hand: the list's result references are enumerated
    and each is another reference than that buffer's, by decision. -/
local macro "no_write" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Each call's inputs at its entry

An argument that a call reads is written by nothing before the call: at the call's entry it holds its launch contents. -/

theorem V0_arg0 (c : Dev nD) : Gen.V0 m ρ c main_arg0 = m ((c.tc : Thread nD τ).loc main_arg0) := rfl
theorem V0_arg5 (c : Dev nD) : Gen.V0 m ρ c main_arg5 = m ((c.tc : Thread nD τ).loc main_arg5) := rfl
theorem V0_arg6 (c : Dev nD) : Gen.V0 m ρ c main_arg6 = m ((c.tc : Thread nD τ).loc main_arg6) := rfl
theorem V0_arg7 (c : Dev nD) : Gen.V0 m ρ c main_arg7 = m ((c.tc : Thread nD τ).loc main_arg7) := rfl
theorem V0_arg8 (c : Dev nD) : Gen.V0 m ρ c main_arg8 = m ((c.tc : Thread nD τ).loc main_arg8) := rfl

theorem V1_arg1 (c : Dev nD) : Gen.V1 m ρ c main_arg1 = m ((c.tc : Thread nD τ).loc main_arg1) :=
  Gen.W1_of_ne m ρ c main_arg1 (by decide)
theorem V1_arg9 (c : Dev nD) : Gen.V1 m ρ c main_arg9 = m ((c.tc : Thread nD τ).loc main_arg9) :=
  Gen.W1_of_ne m ρ c main_arg9 (by decide)
theorem V1_arg10 (c : Dev nD) : Gen.V1 m ρ c main_arg10 = m ((c.tc : Thread nD τ).loc main_arg10) :=
  Gen.W1_of_ne m ρ c main_arg10 (by decide)
theorem V1_arg11 (c : Dev nD) : Gen.V1 m ρ c main_arg11 = m ((c.tc : Thread nD τ).loc main_arg11) :=
  Gen.W1_of_ne m ρ c main_arg11 (by decide)
theorem V1_arg12 (c : Dev nD) : Gen.V1 m ρ c main_arg12 = m ((c.tc : Thread nD τ).loc main_arg12) :=
  Gen.W1_of_ne m ρ c main_arg12 (by decide)

theorem V3_arg13 (c : Dev nD) : Gen.V3 m ρ c main_arg13 = m ((c.tc : Thread nD τ).loc main_arg13) :=
  calc Gen.W3 m ρ c (Proc.devRef .tc main_arg13)
    _ = Gen.W2 m ρ c (Proc.devRef .tc main_arg13) :=
          StableHlo.after_of_forall_not_mem (b := Proc.devRef .tc main_arg13) Gen.hostOps2 (Gen.W2 m ρ c) (by no_write Gen.hostOps2)
    _ = Gen.W1 m ρ c (Proc.devRef .tc main_arg13) := Gen.W2_of_ne m ρ c main_arg13 (by decide)
    _ = Gen.W0 m ρ c (Proc.devRef .tc main_arg13) := Gen.W1_of_ne m ρ c main_arg13 (by decide)
    _ = m ((c.tc : Thread nD τ).loc main_arg13) := rfl

theorem V3_arg14 (c : Dev nD) : Gen.V3 m ρ c main_arg14 = m ((c.tc : Thread nD τ).loc main_arg14) :=
  calc Gen.W3 m ρ c (Proc.devRef .tc main_arg14)
    _ = Gen.W2 m ρ c (Proc.devRef .tc main_arg14) :=
          StableHlo.after_of_forall_not_mem (b := Proc.devRef .tc main_arg14) Gen.hostOps2 (Gen.W2 m ρ c) (by no_write Gen.hostOps2)
    _ = Gen.W1 m ρ c (Proc.devRef .tc main_arg14) := Gen.W2_of_ne m ρ c main_arg14 (by decide)
    _ = Gen.W0 m ρ c (Proc.devRef .tc main_arg14) := Gen.W1_of_ne m ρ c main_arg14 (by decide)
    _ = m ((c.tc : Thread nD τ).loc main_arg14) := rfl

theorem V3_arg15 (c : Dev nD) : Gen.V3 m ρ c main_arg15 = m ((c.tc : Thread nD τ).loc main_arg15) :=
  calc Gen.W3 m ρ c (Proc.devRef .tc main_arg15)
    _ = Gen.W2 m ρ c (Proc.devRef .tc main_arg15) :=
          StableHlo.after_of_forall_not_mem (b := Proc.devRef .tc main_arg15) Gen.hostOps2 (Gen.W2 m ρ c) (by no_write Gen.hostOps2)
    _ = Gen.W1 m ρ c (Proc.devRef .tc main_arg15) := Gen.W2_of_ne m ρ c main_arg15 (by decide)
    _ = Gen.W0 m ρ c (Proc.devRef .tc main_arg15) := Gen.W1_of_ne m ρ c main_arg15 (by decide)
    _ = m ((c.tc : Thread nD τ).loc main_arg15) := rfl

theorem V3_arg16 (c : Dev nD) : Gen.V3 m ρ c main_arg16 = m ((c.tc : Thread nD τ).loc main_arg16) :=
  calc Gen.W3 m ρ c (Proc.devRef .tc main_arg16)
    _ = Gen.W2 m ρ c (Proc.devRef .tc main_arg16) :=
          StableHlo.after_of_forall_not_mem (b := Proc.devRef .tc main_arg16) Gen.hostOps2 (Gen.W2 m ρ c) (by no_write Gen.hostOps2)
    _ = Gen.W1 m ρ c (Proc.devRef .tc main_arg16) := Gen.W2_of_ne m ρ c main_arg16 (by decide)
    _ = Gen.W0 m ρ c (Proc.devRef .tc main_arg16) := Gen.W1_of_ne m ρ c main_arg16 (by decide)
    _ = m ((c.tc : Thread nD τ).loc main_arg16) := rfl

/-! ## Each call's output at its exit

A call's output array (its window 5) holds, when the call is left, what its write-backs leave; the first call's
output is not an array of the second call, which therefore keeps it. -/

theorem W2_out0 (c : Dev nD) : Gen.W2 m ρ c (Proc.devRef .tc main_v0) = (Gen.dat0 (Gen.V0 m ρ) c).arrAt 5 cfg0.N :=
  (Gen.W2_of_ne m ρ c main_v0 (by decide)).trans (Gen.W1_arr m ρ c 5)

theorem W2_out1 (c : Dev nD) : Gen.W2 m ρ c (Proc.devRef .tc main_v1) = (Gen.dat1 (Gen.V1 m ρ) c).arrAt 5 cfg1.N :=
  Gen.W2_arr m ρ c 5

theorem W4_out (c : Dev nD) : Gen.W4 m ρ c (Proc.devRef .tc main_v64) = (Gen.dat2 (Gen.V3 m ρ) c).arrAt 5 cfg2.N :=
  Gen.W4_arr m ρ c 5

/-! ## The arguments the host stretches read

The middle stretch reads five arguments after the second call, the last stretch three after the third call; none of
them is written by a call or a host operation before, so each holds its launch contents there. -/

theorem W2_arg2 (c : Dev nD) : Gen.W2 m ρ c (Proc.devRef .tc main_arg2) = m ((c.tc : Thread nD τ).loc main_arg2) :=
  calc Gen.W2 m ρ c (Proc.devRef .tc main_arg2)
    _ = Gen.W1 m ρ c (Proc.devRef .tc main_arg2) := Gen.W2_of_ne m ρ c main_arg2 (by decide)
    _ = Gen.W0 m ρ c (Proc.devRef .tc main_arg2) := Gen.W1_of_ne m ρ c main_arg2 (by decide)
    _ = m ((c.tc : Thread nD τ).loc main_arg2) := rfl

theorem W2_arg3 (c : Dev nD) : Gen.W2 m ρ c (Proc.devRef .tc main_arg3) = m ((c.tc : Thread nD τ).loc main_arg3) :=
  calc Gen.W2 m ρ c (Proc.devRef .tc main_arg3)
    _ = Gen.W1 m ρ c (Proc.devRef .tc main_arg3) := Gen.W2_of_ne m ρ c main_arg3 (by decide)
    _ = Gen.W0 m ρ c (Proc.devRef .tc main_arg3) := Gen.W1_of_ne m ρ c main_arg3 (by decide)
    _ = m ((c.tc : Thread nD τ).loc main_arg3) := rfl

theorem W2_arg4 (c : Dev nD) : Gen.W2 m ρ c (Proc.devRef .tc main_arg4) = m ((c.tc : Thread nD τ).loc main_arg4) :=
  calc Gen.W2 m ρ c (Proc.devRef .tc main_arg4)
    _ = Gen.W1 m ρ c (Proc.devRef .tc main_arg4) := Gen.W2_of_ne m ρ c main_arg4 (by decide)
    _ = Gen.W0 m ρ c (Proc.devRef .tc main_arg4) := Gen.W1_of_ne m ρ c main_arg4 (by decide)
    _ = m ((c.tc : Thread nD τ).loc main_arg4) := rfl

theorem W2_arg19 (c : Dev nD) : Gen.W2 m ρ c (Proc.devRef .tc main_arg19) = m ((c.tc : Thread nD τ).loc main_arg19) :=
  calc Gen.W2 m ρ c (Proc.devRef .tc main_arg19)
    _ = Gen.W1 m ρ c (Proc.devRef .tc main_arg19) := Gen.W2_of_ne m ρ c main_arg19 (by decide)
    _ = Gen.W0 m ρ c (Proc.devRef .tc main_arg19) := Gen.W1_of_ne m ρ c main_arg19 (by decide)
    _ = m ((c.tc : Thread nD τ).loc main_arg19) := rfl

theorem W2_arg20 (c : Dev nD) : Gen.W2 m ρ c (Proc.devRef .tc main_arg20) = m ((c.tc : Thread nD τ).loc main_arg20) :=
  calc Gen.W2 m ρ c (Proc.devRef .tc main_arg20)
    _ = Gen.W1 m ρ c (Proc.devRef .tc main_arg20) := Gen.W2_of_ne m ρ c main_arg20 (by decide)
    _ = Gen.W0 m ρ c (Proc.devRef .tc main_arg20) := Gen.W1_of_ne m ρ c main_arg20 (by decide)
    _ = m ((c.tc : Thread nD τ).loc main_arg20) := rfl

theorem W4_arg17 (c : Dev nD) : Gen.W4 m ρ c (Proc.devRef .tc main_arg17) = m ((c.tc : Thread nD τ).loc main_arg17) :=
  (StableHlo.after_of_forall_not_mem (b := Proc.devRef .tc main_arg17) Gen.hostOps3 (Gen.W4 m ρ c) (by no_write Gen.hostOps3)).symm.trans
    (Gen.W5_main_arg17 m ρ c)

theorem W4_arg18 (c : Dev nD) : Gen.W4 m ρ c (Proc.devRef .tc main_arg18) = m ((c.tc : Thread nD τ).loc main_arg18) :=
  (StableHlo.after_of_forall_not_mem (b := Proc.devRef .tc main_arg18) Gen.hostOps3 (Gen.W4 m ρ c) (by no_write Gen.hostOps3)).symm.trans
    (Gen.W5_main_arg18 m ρ c)

theorem W4_arg19 (c : Dev nD) : Gen.W4 m ρ c (Proc.devRef .tc main_arg19) = m ((c.tc : Thread nD τ).loc main_arg19) :=
  (StableHlo.after_of_forall_not_mem (b := Proc.devRef .tc main_arg19) Gen.hostOps3 (Gen.W4 m ρ c) (by no_write Gen.hostOps3)).symm.trans
    (Gen.W5_main_arg19 m ρ c)

/-! ## The two host stretches, from any contents

Each stretch is a straight line of operations, each writing one fresh buffer from earlier ones: what its last buffer
holds afterwards is the composition of the operations' functions applied to what the buffers it reads from outside held
before — the same operations, in the same order, as `tail` and `mid` are made of. -/

/-- After the last stretch, from any contents, the result buffer holds `tail` of what the third call's output buffer
    and the three argument buffers of shifts, scales and user indices held before: the operations are evaluated one by
    one, and the composed term is `tail`'s own. -/
theorem hostOps3_v81 (V : Valuation τ sig (Elt F)) :
    StableHlo.after Gen.hostOps3 V (Proc.devRef .tc main_v81)
      = tail (V (Proc.devRef .tc main_v64)) (V (Proc.devRef .tc main_arg17)) (V (Proc.devRef .tc main_arg18))
          (V (Proc.devRef .tc main_arg19)) := by
  after_results_simp
  unfold tail wrapB
  rfl

set_option maxHeartbeats 800000 in
/-- After the middle stretch, from any contents, its last buffer holds `mid` of what the first two calls' output
    buffers and the five argument buffers (edge rows, edge columns, edge values, user indices, item indices) held
    before. The last operation joins two gathered halves side by side; each half is evaluated by itself — the chain
    of operations behind it one by one — and is the corresponding half of `mid`, the three rounds of propagation
    being `hop` applied three times. -/
theorem hostOps2_v63 (V : Valuation τ sig (Elt F)) :
    StableHlo.after Gen.hostOps2 V (Proc.devRef .tc main_v63)
      = mid (V (Proc.devRef .tc main_v0)) (V (Proc.devRef .tc main_v1)) (V (Proc.devRef .tc main_arg2))
          (V (Proc.devRef .tc main_arg3)) (V (Proc.devRef .tc main_arg4)) (V (Proc.devRef .tc main_arg19))
          (V (Proc.devRef .tc main_arg20)) := by
  after_results_simp
  unfold mid
  refine congrArg₂ (fun a b => concatenate S100000x32 1 [⟨S100000x16, a⟩, ⟨S100000x16, b⟩]
    Gen.concatenates_S100000x16_S100000x16_S100000x32_d1) ?_ ?_
  · after_results_simp
    unfold hop wrapE wrapB
    rfl
  · after_results_simp
    unfold hop wrapE wrapB
    rfl

/-! ## The program's result, and the third call's first input -/

/-- The program's result buffer at the end of the fold is `tail` of the third call's output column, the shifts, the
    scales and the user indices: the last stretch from the contents the third call leaves, its three arguments read
    back to the launch memory. -/
theorem W5_result (c : Dev nD) : Gen.W5 m ρ c (Proc.devRef .tc main_v81)
    = tail (Gen.W4 m ρ c (Proc.devRef .tc main_v64)) (m ((c.tc : Thread nD τ).loc main_arg17))
        (m ((c.tc : Thread nD τ).loc main_arg18)) (m ((c.tc : Thread nD τ).loc main_arg19)) := by
  rw [← W4_arg17 m ρ c, ← W4_arg18 m ρ c, ← W4_arg19 m ρ c]
  exact hostOps3_v81 (Gen.W4 m ρ c)

/-- The third call's first input at its entry is `mid` of the first two calls' outputs, the edge list (rows, columns,
    values) and the user and item indices: the middle stretch from the contents the second call leaves, its five
    arguments read back to the launch memory. -/
theorem W3_pair (c : Dev nD) : Gen.W3 m ρ c (Proc.devRef .tc main_v63)
    = mid (Gen.W2 m ρ c (Proc.devRef .tc main_v0)) (Gen.W2 m ρ c (Proc.devRef .tc main_v1))
        (m ((c.tc : Thread nD τ).loc main_arg2)) (m ((c.tc : Thread nD τ).loc main_arg3))
        (m ((c.tc : Thread nD τ).loc main_arg4)) (m ((c.tc : Thread nD τ).loc main_arg19))
        (m ((c.tc : Thread nD τ).loc main_arg20)) := by
  rw [← W2_arg2 m ρ c, ← W2_arg3 m ρ c, ← W2_arg4 m ρ c, ← W2_arg19 m ρ c, ← W2_arg20 m ρ c]
  exact hostOps2_v63 (Gen.W2 m ρ c)

end Cert.KernelIdeal.Val

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.LibPad.lean ====
/-
  General facts about two host layout operations, for any element type: a pad whose low and interior widths are zero,
  onto the operand's own shape, is the operand (so is then its high width); a vector of n entries recast as one row
  [1, n] holds entry q at (0, q). And the one- and two-axis offset vectors of zeros are the zero function.
-/
import Idealize.ShloMosaic.Lib.KernelVsHost
import Idealize.ShloMosaic.Lib.ValueIdx
import Idealize.ShloMosaic.Lib.Pipeline.Value

noncomputable section

namespace Idealize.ShloMosaic

/-- A pad with no low padding and no interior padding, onto the operand's own shape, is the operand. -/
theorem pad_none {s : Shape} {α : Type} {lo hi interior : Fin s.rank → Nat} (hlo : lo = fun _ => 0)
    (hint : interior = fun _ => 0) (x : s.Idx → α) {u : Shape} (v : u.Idx → α) (h : s.Pads lo hi interior s)
    (hu : 0 < u.numel) : pad s lo hi interior x v h hu = x := by
  subst hlo hint
  funext j
  refine pad_apply_of_inside _ hi _ x v h hu j j fun a => ?_
  show (j (a.cast h.1)).val = 0 + (j a).val * (0 + 1)
  simp

theorem zero_offsets1 : (![0] : Fin 1 → Nat) = fun _ => 0 := by
  funext a; fin_cases a; rfl

theorem zero_offsets2' : (![0, 0] : Fin 2 → Nat) = fun _ => 0 := by
  funext a; fin_cases a <;> rfl

/-- A vector of n entries recast as one row [1, n], at (0, q): entry q. -/
theorem shapeCast_row {α : Type} {n : Nat} (x : (⟨1, ![n]⟩ : Shape).Idx → α) (h : (⟨1, ![n]⟩ : Shape).ShapeCasts ⟨2, ![1, n]⟩)
    (q : Fin n) : shapeCast ⟨2, ![1, n]⟩ x h (ValueIdx.ix2 (0 : Fin 1) q) = x (ValueIdx.ix1 q) := by
  refine shapeCast_apply x h (ValueIdx.ix2 0 q) (ValueIdx.ix1 q) ?_
  rw [Shape.rowMajor_val_one, Shape.rowMajor_val_two]
  show q.val = (0 : Fin 1).val * n + q.val
  simp

end Idealize.ShloMosaic

end
-- ==== Proof.LibMlp.lean ====
/-
  Two affine layers on one row, each followed by a clamp from below at zero: the row `x` goes to
  `max (Σ_j max (Σ_l x l · W1 l j + b1 j) 0 · W2 j q + b2 q) 0`.  Stated once over abstract extents, and read off
  (a) a tile's body — two matrix-unit products into zero accumulators over operands whose change of format is the
  identity at the ideal values, each bias recast as one row and repeated down the rows — and (b) the host's
  spelling — two `dot_general`s, each bias broadcast in two steps, the clamp against a broadcast scalar zero.
  Both are the same function of the entries, index by index.
-/
import Idealize.ShloMosaic.Lib.ValueIdx
import Idealize.ShloMosaic.Lib.Pipeline.Value
import Idealize.ShloMosaic.PureOps.Ideal.Laws
import proofs.«167168_j47227460387322_1_alg».proof.Proof.LibPlain
import proofs.«167168_j47227460387322_1_alg».proof.Proof.LibPad

noncomputable section

namespace Cert.Mlp

open Idealize.ShloMosaic Idealize.ShloMosaic.ValueIdx

/-- The zero word of the 32-bit format, read at the ideal values. -/
abbrev zr : EReal := Ideal.ofBits .f32 0x00000000#32

/-- One row through the two layers; `q` is the output coordinate. -/
def net {K H E : Nat} (x : Fin K → EReal) (W1 : Fin K → Fin H → EReal) (b1 : Fin H → EReal)
    (W2 : Fin H → Fin E → EReal) (b2 : Fin E → EReal) (q : Fin E) : EReal :=
  max ((∑ j : Fin H, max ((∑ l : Fin K, x l * W1 l j) + b1 j) zr * W2 j q) + b2 q) zr

/-- The whole array: entry (p, q) is `net` of row p of `X`. -/
def arr {N K H E : Nat} (X : (⟨2, ![N, K]⟩ : Shape).Idx → EReal) (W1 : (⟨2, ![K, H]⟩ : Shape).Idx → EReal)
    (b1 : (⟨1, ![H]⟩ : Shape).Idx → EReal) (W2 : (⟨2, ![H, E]⟩ : Shape).Idx → EReal)
    (b2 : (⟨1, ![E]⟩ : Shape).Idx → EReal) : (⟨2, ![N, E]⟩ : Shape).Idx → EReal :=
  fun i => net (fun l => X (ix2 (i 0) l)) (fun l j => W1 (ix2 l j)) (fun j => b1 (ix1 j))
    (fun j q => W2 (ix2 j q)) (fun q => b2 (ix1 q)) (i 1)

theorem arr_apply {N K H E : Nat} (X : (⟨2, ![N, K]⟩ : Shape).Idx → EReal) (W1 : (⟨2, ![K, H]⟩ : Shape).Idx → EReal)
    (b1 : (⟨1, ![H]⟩ : Shape).Idx → EReal) (W2 : (⟨2, ![H, E]⟩ : Shape).Idx → EReal)
    (b2 : (⟨1, ![E]⟩ : Shape).Idx → EReal) (p : Fin N) (q : Fin E) :
    arr X W1 b1 W2 b2 (ix2 p q) = net (fun l => X (ix2 p l)) (fun l j => W1 (ix2 l j)) (fun j => b1 (ix1 j))
      (fun j q => W2 (ix2 j q)) (fun q => b2 (ix1 q)) q := rfl

/-- One row `[1, n]` repeated down `m` rows, at (p, q): the row's entry q. -/
theorem broadcastTo_row {α : Type} {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 (0 : Fin 1) q) := by
  refine broadcastTo_apply x h (ix2 p q) (ix2 (0 : Fin 1) q) fun a => ?_
  match a with
  | ⟨0, _⟩ =>
    show (0 : Fin 1).val = if (1 : Nat) = 1 then 0 else p.val
    rw [if_pos rfl]; rfl
  | ⟨1, _⟩ =>
    show q.val = if n = 1 then 0 else q.val
    split
    · have := q.isLt; omega
    · rfl

/-- A bias recast as one row and repeated down the rows, at (p, q): the bias at q. -/
theorem bias_rows {α : Type} {m n : Nat} (b : (⟨1, ![n]⟩ : Shape).Idx → α)
    (sc : (⟨1, ![n]⟩ : Shape).ShapeCasts ⟨2, ![1, n]⟩) (br : (⟨2, ![1, n]⟩ : Shape).Broadcasts ⟨2, ![m, n]⟩)
    (p : Fin m) (q : Fin n) :
    broadcastTo ⟨2, ![m, n]⟩ (shapeCast ⟨2, ![1, n]⟩ b sc) br (ix2 p q) = b (ix1 q) := by
  rw [broadcastTo_row, shapeCast_row]

/-- A bias made a row and then repeated down the rows by two `broadcast_in_dim`s, at (p, q): the bias at q. -/
theorem bias_bcast {α : Type} {n e : Nat} (b : (⟨1, ![e]⟩ : Shape).Idx → α)
    (r : (⟨1, ![e]⟩ : Shape).BroadcastsInDim ⟨2, ![1, e]⟩ ![1])
    (c : (⟨2, ![1, e]⟩ : Shape).BroadcastsInDim ⟨2, ![n, e]⟩ ![0, 1]) (p : Fin n) (q : Fin e) :
    broadcastInDim ⟨2, ![n, e]⟩ ![0, 1] c (broadcastInDim ⟨2, ![1, e]⟩ ![1] r b) (ix2 p q) = b (ix1 q) := by
  refine (broadcastInDim_apply ![0, 1] c _ (ix2 p q) (ix2 (0 : Fin 1) q) fun a => ?_).trans
    (broadcastInDim_apply ![1] r b (ix2 (0 : Fin 1) q) (ix1 q) fun a => ?_)
  · match a with
    | ⟨0, _⟩ =>
      show (0 : Fin 1).val = if (1 : Nat) = 1 then 0 else p.val
      rw [if_pos rfl]; rfl
    | ⟨1, _⟩ =>
      show q.val = if e = 1 then 0 else q.val
      split
      · have := q.isLt; omega
      · rfl
  · match a with
    | ⟨0, _⟩ =>
      show q.val = if e = 1 then 0 else q.val
      split
      · have := q.isLt; omega
      · rfl

/-- A scalar constant broadcast to any shape, at any index: the constant's value. -/
theorem scalar_bcast {t : Shape} (z : (⟨0, ![]⟩ : Shape).BroadcastsInDim t ![]) (w : BitVec 32) (i : t.Idx) :
    broadcastInDim t ![] z (constant (F := Ideal) ⟨0, ![]⟩ .f32 w) i = Ideal.ofBits .f32 w :=
  broadcastInDim_apply ![] z _ i ix0 fun a => a.elim0

/-- THE TILE'S BODY at (p, q): `net` of row p of the tile. -/
theorem body_apply {M K H E : Nat}
    (d1 : DotDims ⟨2, ![M, K]⟩ ⟨2, ![K, H]⟩ ⟨2, ![M, H]⟩) (hd1 : d1 = DotDims.plain M K H)
    (d2 : DotDims ⟨2, ![M, H]⟩ ⟨2, ![H, E]⟩ ⟨2, ![M, E]⟩) (hd2 : d2 = DotDims.plain M H E)
    (x0 : FVec Ideal ⟨2, ![M, K]⟩ .f32) (x1 : FVec Ideal ⟨2, ![K, H]⟩ .f32) (x2 : FVec Ideal ⟨1, ![H]⟩ .f32)
    (x3 : FVec Ideal ⟨2, ![H, E]⟩ .f32) (x4 : FVec Ideal ⟨1, ![E]⟩ .f32)
    (hb : FTy.bf16.bits < FTy.f32.bits)
    (sc1 : (⟨1, ![H]⟩ : Shape).ShapeCasts ⟨2, ![1, H]⟩) (br1 : (⟨2, ![1, H]⟩ : Shape).Broadcasts ⟨2, ![M, H]⟩)
    (sc2 : (⟨1, ![E]⟩ : Shape).ShapeCasts ⟨2, ![1, E]⟩) (br2 : (⟨2, ![1, E]⟩ : Shape).Broadcasts ⟨2, ![M, E]⟩)
    (p : Fin M) (q : Fin E) :
    maximumf
      (addf
        (matmul d2 none
          (truncf .bf16
            (maximumf
              (addf (matmul d1 none (truncf .bf16 x0 hb) (truncf .bf16 x1 hb) (constant ⟨2, ![M, H]⟩ .f32 0x00000000#32))
                (broadcastTo ⟨2, ![M, H]⟩ (shapeCast ⟨2, ![1, H]⟩ x2 sc1) br1))
              (broadcast ⟨2, ![M, H]⟩ (Scalar.ofBits (F := Ideal) .f32 0x00000000#32))) hb)
          (truncf .bf16 x3 hb) (constant ⟨2, ![M, E]⟩ .f32 0x00000000#32))
        (broadcastTo ⟨2, ![M, E]⟩ (shapeCast ⟨2, ![1, E]⟩ x4 sc2) br2))
      (broadcast ⟨2, ![M, E]⟩ (Scalar.ofBits (F := Ideal) .f32 0x00000000#32)) (ix2 p q)
    = net (fun l => x0 (ix2 p l)) (fun l j => x1 (ix2 l j)) (fun j => x2 (ix1 j))
        (fun j q => x3 (ix2 j q)) (fun q => x4 (ix1 q)) q := by
  subst hd1 hd2
  have h1 : ∀ (A : FVec Ideal ⟨2, ![M, K]⟩ .bf16) (B : FVec Ideal ⟨2, ![K, H]⟩ .bf16) (j : Fin H),
      matmul (DotDims.plain M K H) none A B (constant ⟨2, ![M, H]⟩ .f32 0x00000000#32) (ix2 p j)
        = ∑ l : Fin K, A (ix2 p l) * B (ix2 l j) := fun A B j => Ideal.matmul_plain_zero_apply none A B p j
  have h2 : ∀ (A : FVec Ideal ⟨2, ![M, H]⟩ .bf16) (B : FVec Ideal ⟨2, ![H, E]⟩ .bf16),
      matmul (DotDims.plain M H E) none A B (constant ⟨2, ![M, E]⟩ .f32 0x00000000#32) (ix2 p q)
        = ∑ j : Fin H, A (ix2 p j) * B (ix2 j q) := fun A B => Ideal.matmul_plain_zero_apply none A B p q
  unfold net
  rw [maximumf_apply, addf_apply, bias_rows, broadcast_apply, h2]
  refine congrArg (fun s => max (s + x4 (ix1 q)) _) (Finset.sum_congr rfl fun j _ => ?_)
  rw [truncf_apply, truncf_apply, maximumf_apply, addf_apply, bias_rows, broadcast_apply, h1]
  rfl

/-- THE HOST'S SPELLING at (p, q): `net` of row p of `X`. -/
theorem host_apply {N K H E : Nat}
    (d1 : DotDims ⟨2, ![N, K]⟩ ⟨2, ![K, H]⟩ ⟨2, ![N, H]⟩) (hd1 : d1 = DotDims.plain N K H)
    (d2 : DotDims ⟨2, ![N, H]⟩ ⟨2, ![H, E]⟩ ⟨2, ![N, E]⟩) (hd2 : d2 = DotDims.plain N H E)
    (X : FVec Ideal ⟨2, ![N, K]⟩ .f32) (W1 : FVec Ideal ⟨2, ![K, H]⟩ .f32) (b1 : FVec Ideal ⟨1, ![H]⟩ .f32)
    (W2 : FVec Ideal ⟨2, ![H, E]⟩ .f32) (b2 : FVec Ideal ⟨1, ![E]⟩ .f32)
    (r1 : (⟨1, ![H]⟩ : Shape).BroadcastsInDim ⟨2, ![1, H]⟩ ![1])
    (c1 : (⟨2, ![1, H]⟩ : Shape).BroadcastsInDim ⟨2, ![N, H]⟩ ![0, 1])
    (z1 : (⟨0, ![]⟩ : Shape).BroadcastsInDim ⟨2, ![N, H]⟩ ![])
    (r2 : (⟨1, ![E]⟩ : Shape).BroadcastsInDim ⟨2, ![1, E]⟩ ![1])
    (c2 : (⟨2, ![1, E]⟩ : Shape).BroadcastsInDim ⟨2, ![N, E]⟩ ![0, 1])
    (z2 : (⟨0, ![]⟩ : Shape).BroadcastsInDim ⟨2, ![N, E]⟩ ![])
    (p : Fin N) (q : Fin E) :
    maximumf
      (addf
        (Host.dotGeneral d2 none
          (maximumf
            (addf (Host.dotGeneral d1 none X W1)
              (broadcastInDim ⟨2, ![N, H]⟩ ![0, 1] c1 (broadcastInDim ⟨2, ![1, H]⟩ ![1] r1 b1)))
            (broadcastInDim ⟨2, ![N, H]⟩ ![] z1 (constant (F := Ideal) ⟨0, ![]⟩ .f32 0x00000000#32)))
          W2)
        (broadcastInDim ⟨2, ![N, E]⟩ ![0, 1] c2 (broadcastInDim ⟨2, ![1, E]⟩ ![1] r2 b2)))
      (broadcastInDim ⟨2, ![N, E]⟩ ![] z2 (constant (F := Ideal) ⟨0, ![]⟩ .f32 0x00000000#32)) (ix2 p q)
    = net (fun l => X (ix2 p l)) (fun l j => W1 (ix2 l j)) (fun j => b1 (ix1 j))
        (fun j q => W2 (ix2 j q)) (fun q => b2 (ix1 q)) q := by
  subst hd1 hd2
  have h1 : ∀ (A : FVec Ideal ⟨2, ![N, K]⟩ .f32) (B : FVec Ideal ⟨2, ![K, H]⟩ .f32) (j : Fin H),
      Host.dotGeneral (DotDims.plain N K H) none A B (ix2 p j) = ∑ l : Fin K, A (ix2 p l) * B (ix2 l j) :=
    fun A B j => by simp only [Host.dotGeneral]; exact Ideal.dotGeneral_plain_apply _ _ A B p j
  have h2 : ∀ (A : FVec Ideal ⟨2, ![N, H]⟩ .f32) (B : FVec Ideal ⟨2, ![H, E]⟩ .f32),
      Host.dotGeneral (DotDims.plain N H E) none A B (ix2 p q) = ∑ j : Fin H, A (ix2 p j) * B (ix2 j q) :=
    fun A B => by simp only [Host.dotGeneral]; exact Ideal.dotGeneral_plain_apply _ _ A B p q
  unfold net
  rw [maximumf_apply, addf_apply, bias_bcast, scalar_bcast, h2]
  refine congrArg (fun s => max (s + b2 (ix1 q)) _) (Finset.sum_congr rfl fun j _ => ?_)
  rw [maximumf_apply, addf_apply, bias_bcast, scalar_bcast, h1]

end Cert.Mlp

end
-- ==== Proof.Region0.lean ====
/-
  Region 0: the result array after the tiled call is one function of the five operands as the call finds them.
  Every grid point t stores, into rows t·400 … t·400+399 of the result, the two-layer network of the same rows of the
  first operand (the four small operands are read whole at every point); the 25 row tiles cover all 10000 rows, so the
  array ends as the network applied row by row.
-/
import proofs.«167168_j47227460387322_1_alg».proof.Proof.Gen.KernelIdeal.Frame
import proofs.«167168_j47227460387322_1_alg».proof.Proof.LibMlp

set_option maxRecDepth 16384

noncomputable section

namespace Cert.KernelIdeal.Val

open Cert.KernelIdeal Cert.KernelIdeal.Facts₀ Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-- The tile's stored value at (p, q): the network of row p of the tile. -/
theorem pay0_apply (x0 : Vec Ideal S400x5000 .f32) (x1 : Vec Ideal S5000x64 .f32) (x2 : Vec Ideal S64 .f32)
    (x3 : Vec Ideal S64x16 .f32) (x4 : Vec Ideal S16 .f32) (p : Fin 400) (q : Fin 16) :
    Gen.k0_pay1 x0 x1 x2 x3 x4 (ix2 p q)
      = Cert.Mlp.net (fun l => x0 (ix2 p l)) (fun l j => x1 (ix2 l j)) (fun j => x2 (ix1 j))
          (fun j q => x3 (ix2 j q)) (fun q => x4 (ix1 q)) q := by
  unfold Gen.k0_pay1
  exact Cert.Mlp.body_apply _ rfl _ rfl x0 x1 x2 x3 x4 _ _ _ _ _ p q

/-- Where each window's block sits at grid point t: the first operand's and the result's at row block t, the four
    small operands' at block zero. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first operand's tile at point t, entry (p, l): the operand at row t·400 + p. -/
theorem blk0_0 (c : Dev nD) (t : Fin cfg0.N) (p : Fin 400) (l : Fin 5000) (ρ : Fin 10000)
    (hρ : ρ.val = t.val * 400 + p.val) :
    (Gen.iblk0 V c 0 t : Vec Ideal S400x5000 .f32) (ix2 p l) = (V c main_arg0 : S10000x5000.Idx → EReal) (ix2 ρ l) := by
  obtain ⟨e0, e1, -⟩ := idx0_facts t
  unfold Gen.iblk0
  rw [View.read_apply]
  refine congrArg (V c main_arg0 : S10000x5000.Idx → EReal) ?_
  funext a; apply Fin.ext
  match a with
  | ⟨0, _⟩ => show win0_0.index t (0 : Fin 2) * 400 + 1 * p.val = ρ.val; rw [e0, hρ]; omega
  | ⟨1, _⟩ => show win0_0.index t (1 : Fin 2) * 5000 + 1 * l.val = l.val; rw [e1]; omega

/-- The first layer's weights are read whole at every point. -/
theorem blk0_1 (c : Dev nD) (t : Fin cfg0.N) :
    (Gen.iblk0 V c 1 t : Vec Ideal S5000x64 .f32) = (V c main_arg5 : S5000x64.Idx → EReal) := by
  obtain ⟨-, -, e0, e1, -⟩ := idx0_facts t
  funext x
  unfold Gen.iblk0
  rw [View.read_apply]
  refine congrArg (V c main_arg5 : S5000x64.Idx → EReal) ?_
  funext a; apply Fin.ext
  match a with
  | ⟨0, _⟩ => show win0_1.index t (0 : Fin 2) * 5000 + 1 * (x 0).val = (x 0).val; rw [e0]; omega
  | ⟨1, _⟩ => show win0_1.index t (1 : Fin 2) * 64 + 1 * (x 1).val = (x 1).val; rw [e1]; omega

/-- The first layer's bias is read whole at every point. -/
theorem blk0_2 (c : Dev nD) (t : Fin cfg0.N) :
    (Gen.iblk0 V c 2 t : Vec Ideal S64 .f32) = (V c main_arg6 : S64.Idx → EReal) := by
  obtain ⟨-, -, -, -, e0, -⟩ := idx0_facts t
  funext x
  unfold Gen.iblk0
  rw [View.read_apply]
  refine congrArg (V c main_arg6 : S64.Idx → EReal) ?_
  funext a; apply Fin.ext
  match a with
  | ⟨0, _⟩ => show win0_2.index t (0 : Fin 1) * 64 + 1 * (x 0).val = (x 0).val; rw [e0]; omega

/-- The second layer's weights are read whole at every point. -/
theorem blk0_3 (c : Dev nD) (t : Fin cfg0.N) :
    (Gen.iblk0 V c 3 t : Vec Ideal S64x16 .f32) = (V c main_arg7 : S64x16.Idx → EReal) := by
  obtain ⟨-, -, -, -, -, e0, e1, -⟩ := idx0_facts t
  funext x
  unfold Gen.iblk0
  rw [View.read_apply]
  refine congrArg (V c main_arg7 : S64x16.Idx → EReal) ?_
  funext a; apply Fin.ext
  match a with
  | ⟨0, _⟩ => show win0_3.index t (0 : Fin 2) * 64 + 1 * (x 0).val = (x 0).val; rw [e0]; omega
  | ⟨1, _⟩ => show win0_3.index t (1 : Fin 2) * 16 + 1 * (x 1).val = (x 1).val; rw [e1]; omega

/-- The second layer's bias is read whole at every point. -/
theorem blk0_4 (c : Dev nD) (t : Fin cfg0.N) :
    (Gen.iblk0 V c 4 t : Vec Ideal S16 .f32) = (V c main_arg8 : S16.Idx → EReal) := by
  obtain ⟨-, -, -, -, -, -, -, e0, -⟩ := idx0_facts t
  funext x
  unfold Gen.iblk0
  rw [View.read_apply]
  refine congrArg (V c main_arg8 : S16.Idx → EReal) ?_
  funext a; apply Fin.ext
  match a with
  | ⟨0, _⟩ => show win0_4.index t (0 : Fin 1) * 16 + 1 * (x 0).val = (x 0).val; rw [e0]; omega

/-- What point t leaves in the result's tile, entry j: the whole-array function at the entry's place in the array. -/
theorem point0 (c : Dev nD) (t : Fin cfg0.N) (j : S400x16.Idx) :
    Gen.k0_pay1 (Gen.iblk0 V c 0 t) (Gen.iblk0 V c 1 t) (Gen.iblk0 V c 2 t) (Gen.iblk0 V c 3 t) (Gen.iblk0 V c 4 t) j
      = Cert.Mlp.arr (V c main_arg0 : S10000x5000.Idx → EReal) (V c main_arg5 : S5000x64.Idx → EReal) (V c main_arg6 : S64.Idx → EReal) (V c main_arg7 : S64x16.Idx → EReal) (V c main_arg8 : S16.Idx → EReal) (((cfg0.win 5).blk t).view.emb j) := by
  obtain ⟨p, q, rfl⟩ : ∃ (p : Fin 400) (q : Fin 16), j = ix2 p q := ⟨j 0, j 1, eq_ix2 j⟩
  obtain ⟨-, -, -, -, -, -, -, -, e0, e1⟩ := idx0_facts t
  have ht : t.val < 25 := lt_of_lt_of_eq t.isLt Gen.N_0
  have hemb : ((cfg0.win 5).blk t).view.emb (ix2 p q)
      = (ix2 (⟨t.val * 400 + p.val, by have := p.isLt; omega⟩ : Fin 10000) q : S10000x16.Idx) := by
    funext a; apply Fin.ext
    match a with
    | ⟨0, _⟩ => show win0_5.index t (0 : Fin 2) * 400 + 1 * p.val = t.val * 400 + p.val; rw [e0]; omega
    | ⟨1, _⟩ => show win0_5.index t (1 : Fin 2) * 16 + 1 * q.val = q.val; rw [e1]; omega
  refine (pay0_apply (Gen.iblk0 V c 0 t) (Gen.iblk0 V c 1 t) (Gen.iblk0 V c 2 t) (Gen.iblk0 V c 3 t) (Gen.iblk0 V c 4 t) p q).trans ?_
  rw [hemb, Cert.Mlp.arr_apply, blk0_1 V c t, blk0_2 V c t, blk0_3 V c t, blk0_4 V c t]
  refine congrArg (fun x => Cert.Mlp.net x _ _ _ _ q) ?_
  funext l
  exact blk0_0 V c t p l _ rfl

/-- WHAT POINT t WRITES BACK is tile t of the whole-array function of the operands. -/
theorem flushed0_eq (c : Dev nD) (t : Fin cfg0.N) :
    (Gen.dat0 (F := Ideal) V c).flushed 5 t
      = ((cfg0.win 5).blk t).view.read (Elt Ideal) (Cert.Mlp.arr (V c main_arg0 : S10000x5000.Idx → EReal) (V c main_arg5 : S5000x64.Idx → EReal) (V c main_arg6 : S64.Idx → EReal) (V c main_arg7 : S64x16.Idx → EReal) (V c main_arg8 : S16.Idx → EReal)) := by
  show (cfg0.win 5).cut (grid0.coords t) ((Gen.dat0 V c).after 5 t) = _
  rw [Gen.after0_5]
  unfold Gen.out0_5
  rw [View.canon_unit_zero hz2]
  simp only [View.ld_unit_zero (S := S400x5000) hz2, View.ld_unit_zero (S := S5000x64) hz2, View.ld_unit_zero (S := S64) hz1,
    View.ld_unit_zero (S := S64x16) hz2, View.ld_unit_zero (S := S16) hz1]
  funext j
  exact point0 V c t j

/-- An index of the result is in point t's tile iff each coordinate is in the tile's range on its axis. -/
theorem mem_blk0 (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v0).slice (win0_5.rect t)).set ↔ _
  rw [View.set_slice_whole, Rect.mem_set_unit]
  exact Iff.rfl

/-- Every index of the result is in some point's tile: row ρ is in tile ρ / 400. -/
theorem cover0 (i : S10000x16.Idx) :
    ∃ t : Fin cfg0.N, (cfg0.win 5).flush t = true ∧ i ∈ ((cfg0.win 5).blk t).view.set := by
  have hi0 : (i 0).val < 10000 := (i 0).isLt
  have hi1 : (i 1).val < 16 := (i 1).isLt
  obtain ⟨t, ht⟩ : ∃ t : Fin cfg0.N, t.val = (i 0).val / 400 :=
    ⟨⟨(i 0).val / 400, by show _ < grid0.N; rw [Gen.N_0]; omega⟩, rfl⟩
  obtain ⟨-, -, -, -, -, -, -, -, e0, e1⟩ := idx0_facts t
  refine ⟨t, Gen.flush0_5 t, ?_⟩
  rw [mem_blk0]
  intro a
  match a with
  | ⟨0, _⟩ =>
    show win0_5.index t (0 : Fin 2) * 400 ≤ (i 0).val ∧ (i 0).val < win0_5.index t (0 : Fin 2) * 400 + 400
    rw [e0, ht]; omega
  | ⟨1, _⟩ =>
    show win0_5.index t (1 : Fin 2) * 16 ≤ (i 1).val ∧ (i 1).val < win0_5.index t (1 : Fin 2) * 16 + 16
    rw [e1]; omega

/-- THE RESULT ARRAY after the region: the network applied to every row of the first operand. -/
theorem final0 (c : Dev nD) :
    (Gen.dat0 (F := Ideal) V c).arrAt 5 cfg0.N = Cert.Mlp.arr (V c main_arg0 : S10000x5000.Idx → EReal) (V c main_arg5 : S5000x64.Idx → EReal) (V c main_arg6 : S64.Idx → EReal) (V c main_arg7 : S64x16.Idx → EReal) (V c main_arg8 : S16.Idx → EReal) :=
  (Gen.dat0 (F := Ideal) V c).arrAt_eq_of_cover 5 _ (fun t _ => flushed0_eq V c t) (cover0)

end Cert.KernelIdeal.Val

end
-- ==== Proof.Region1.lean ====
/-
  Region 1: the result array after the tiled call is one function of the five operands as the call finds them.
  Every grid point t stores, into rows t·200 … t·200+199 of the result, the two-layer network of the same rows of the
  first operand (the four small operands are read whole at every point); the 25 row tiles cover all 5000 rows, so the
  array ends as the network applied row by row.
-/
import proofs.«167168_j47227460387322_1_alg».proof.Proof.Gen.KernelIdeal.Frame
import proofs.«167168_j47227460387322_1_alg».proof.Proof.LibMlp

set_option maxRecDepth 16384

noncomputable section

namespace Cert.KernelIdeal.Val

open Cert.KernelIdeal Cert.KernelIdeal.Facts₀ Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-- The tile's stored value at (p, q): the network of row p of the tile. -/
theorem pay1_apply (x0 : Vec Ideal S200x10000 .f32) (x1 : Vec Ideal S10000x64 .f32) (x2 : Vec Ideal S64 .f32)
    (x3 : Vec Ideal S64x16 .f32) (x4 : Vec Ideal S16 .f32) (p : Fin 200) (q : Fin 16) :
    Gen.k1_pay1 x0 x1 x2 x3 x4 (ix2 p q)
      = Cert.Mlp.net (fun l => x0 (ix2 p l)) (fun l j => x1 (ix2 l j)) (fun j => x2 (ix1 j))
          (fun j q => x3 (ix2 j q)) (fun q => x4 (ix1 q)) q := by
  unfold Gen.k1_pay1
  exact Cert.Mlp.body_apply _ rfl _ rfl x0 x1 x2 x3 x4 _ _ _ _ _ p q

/-- Where each window's block sits at grid point t: the first operand's and the result's at row block t, the four
    small operands' at block zero. -/
theorem idx1_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The first operand's tile at point t, entry (p, l): the operand at row t·200 + p. -/
theorem blk1_0 (c : Dev nD) (t : Fin cfg1.N) (p : Fin 200) (l : Fin 10000) (ρ : Fin 5000)
    (hρ : ρ.val = t.val * 200 + p.val) :
    (Gen.iblk1 V c 0 t : Vec Ideal S200x10000 .f32) (ix2 p l) = (V c main_arg1 : S5000x10000.Idx → EReal) (ix2 ρ l) := by
  obtain ⟨e0, e1, -⟩ := idx1_facts t
  unfold Gen.iblk1
  rw [View.read_apply]
  refine congrArg (V c main_arg1 : S5000x10000.Idx → EReal) ?_
  funext a; apply Fin.ext
  match a with
  | ⟨0, _⟩ => show win1_0.index t (0 : Fin 2) * 200 + 1 * p.val = ρ.val; rw [e0, hρ]; omega
  | ⟨1, _⟩ => show win1_0.index t (1 : Fin 2) * 10000 + 1 * l.val = l.val; rw [e1]; omega

/-- The first layer's weights are read whole at every point. -/
theorem blk1_1 (c : Dev nD) (t : Fin cfg1.N) :
    (Gen.iblk1 V c 1 t : Vec Ideal S10000x64 .f32) = (V c main_arg9 : S10000x64.Idx → EReal) := by
  obtain ⟨-, -, e0, e1, -⟩ := idx1_facts t
  funext x
  unfold Gen.iblk1
  rw [View.read_apply]
  refine congrArg (V c main_arg9 : S10000x64.Idx → EReal) ?_
  funext a; apply Fin.ext
  match a with
  | ⟨0, _⟩ => show win1_1.index t (0 : Fin 2) * 10000 + 1 * (x 0).val = (x 0).val; rw [e0]; omega
  | ⟨1, _⟩ => show win1_1.index t (1 : Fin 2) * 64 + 1 * (x 1).val = (x 1).val; rw [e1]; omega

/-- The first layer's bias is read whole at every point. -/
theorem blk1_2 (c : Dev nD) (t : Fin cfg1.N) :
    (Gen.iblk1 V c 2 t : Vec Ideal S64 .f32) = (V c main_arg10 : S64.Idx → EReal) := by
  obtain ⟨-, -, -, -, e0, -⟩ := idx1_facts t
  funext x
  unfold Gen.iblk1
  rw [View.read_apply]
  refine congrArg (V c main_arg10 : S64.Idx → EReal) ?_
  funext a; apply Fin.ext
  match a with
  | ⟨0, _⟩ => show win1_2.index t (0 : Fin 1) * 64 + 1 * (x 0).val = (x 0).val; rw [e0]; omega

/-- The second layer's weights are read whole at every point. -/
theorem blk1_3 (c : Dev nD) (t : Fin cfg1.N) :
    (Gen.iblk1 V c 3 t : Vec Ideal S64x16 .f32) = (V c main_arg11 : S64x16.Idx → EReal) := by
  obtain ⟨-, -, -, -, -, e0, e1, -⟩ := idx1_facts t
  funext x
  unfold Gen.iblk1
  rw [View.read_apply]
  refine congrArg (V c main_arg11 : S64x16.Idx → EReal) ?_
  funext a; apply Fin.ext
  match a with
  | ⟨0, _⟩ => show win1_3.index t (0 : Fin 2) * 64 + 1 * (x 0).val = (x 0).val; rw [e0]; omega
  | ⟨1, _⟩ => show win1_3.index t (1 : Fin 2) * 16 + 1 * (x 1).val = (x 1).val; rw [e1]; omega

/-- The second layer's bias is read whole at every point. -/
theorem blk1_4 (c : Dev nD) (t : Fin cfg1.N) :
    (Gen.iblk1 V c 4 t : Vec Ideal S16 .f32) = (V c main_arg12 : S16.Idx → EReal) := by
  obtain ⟨-, -, -, -, -, -, -, e0, -⟩ := idx1_facts t
  funext x
  unfold Gen.iblk1
  rw [View.read_apply]
  refine congrArg (V c main_arg12 : S16.Idx → EReal) ?_
  funext a; apply Fin.ext
  match a with
  | ⟨0, _⟩ => show win1_4.index t (0 : Fin 1) * 16 + 1 * (x 0).val = (x 0).val; rw [e0]; omega

/-- What point t leaves in the result's tile, entry j: the whole-array function at the entry's place in the array. -/
theorem point1 (c : Dev nD) (t : Fin cfg1.N) (j : S200x16.Idx) :
    Gen.k1_pay1 (Gen.iblk1 V c 0 t) (Gen.iblk1 V c 1 t) (Gen.iblk1 V c 2 t) (Gen.iblk1 V c 3 t) (Gen.iblk1 V c 4 t) j
      = Cert.Mlp.arr (V c main_arg1 : S5000x10000.Idx → EReal) (V c main_arg9 : S10000x64.Idx → EReal) (V c main_arg10 : S64.Idx → EReal) (V c main_arg11 : S64x16.Idx → EReal) (V c main_arg12 : S16.Idx → EReal) (((cfg1.win 5).blk t).view.emb j) := by
  obtain ⟨p, q, rfl⟩ : ∃ (p : Fin 200) (q : Fin 16), j = ix2 p q := ⟨j 0, j 1, eq_ix2 j⟩
  obtain ⟨-, -, -, -, -, -, -, -, e0, e1⟩ := idx1_facts t
  have ht : t.val < 25 := lt_of_lt_of_eq t.isLt Gen.N_1
  have hemb : ((cfg1.win 5).blk t).view.emb (ix2 p q)
      = (ix2 (⟨t.val * 200 + p.val, by have := p.isLt; omega⟩ : Fin 5000) q : S5000x16.Idx) := by
    funext a; apply Fin.ext
    match a with
    | ⟨0, _⟩ => show win1_5.index t (0 : Fin 2) * 200 + 1 * p.val = t.val * 200 + p.val; rw [e0]; omega
    | ⟨1, _⟩ => show win1_5.index t (1 : Fin 2) * 16 + 1 * q.val = q.val; rw [e1]; omega
  refine (pay1_apply (Gen.iblk1 V c 0 t) (Gen.iblk1 V c 1 t) (Gen.iblk1 V c 2 t) (Gen.iblk1 V c 3 t) (Gen.iblk1 V c 4 t) p q).trans ?_
  rw [hemb, Cert.Mlp.arr_apply, blk1_1 V c t, blk1_2 V c t, blk1_3 V c t, blk1_4 V c t]
  refine congrArg (fun x => Cert.Mlp.net x _ _ _ _ q) ?_
  funext l
  exact blk1_0 V c t p l _ rfl

/-- WHAT POINT t WRITES BACK is tile t of the whole-array function of the operands. -/
theorem flushed1_eq (c : Dev nD) (t : Fin cfg1.N) :
    (Gen.dat1 (F := Ideal) V c).flushed 5 t
      = ((cfg1.win 5).blk t).view.read (Elt Ideal) (Cert.Mlp.arr (V c main_arg1 : S5000x10000.Idx → EReal) (V c main_arg9 : S10000x64.Idx → EReal) (V c main_arg10 : S64.Idx → EReal) (V c main_arg11 : S64x16.Idx → EReal) (V c main_arg12 : S16.Idx → EReal)) := by
  show (cfg1.win 5).cut (grid1.coords t) ((Gen.dat1 V c).after 5 t) = _
  rw [Gen.after1_5]
  unfold Gen.out1_5
  rw [View.canon_unit_zero hz2]
  simp only [View.ld_unit_zero (S := S200x10000) hz2, View.ld_unit_zero (S := S10000x64) hz2, View.ld_unit_zero (S := S64) hz1,
    View.ld_unit_zero (S := S64x16) hz2, View.ld_unit_zero (S := S16) hz1]
  funext j
  exact point1 V c t j

/-- An index of the result is in point t's tile iff each coordinate is in the tile's range on its axis. -/
theorem mem_blk1 (t : Fin cfg1.N) (i : S5000x16.Idx) :
    i ∈ ((cfg1.win 5).blk t).view.set ↔ ∀ a : Fin 2, win1_5.index t a * S200x16.size a ≤ (i a).val ∧ (i a).val < win1_5.index t a * S200x16.size a + S200x16.size a := by
  show i ∈ ((View.whole main_v1).slice (win1_5.rect t)).set ↔ _
  rw [View.set_slice_whole, Rect.mem_set_unit]
  exact Iff.rfl

/-- Every index of the result is in some point's tile: row ρ is in tile ρ / 200. -/
theorem cover1 (i : S5000x16.Idx) :
    ∃ t : Fin cfg1.N, (cfg1.win 5).flush t = true ∧ i ∈ ((cfg1.win 5).blk t).view.set := by
  have hi0 : (i 0).val < 5000 := (i 0).isLt
  have hi1 : (i 1).val < 16 := (i 1).isLt
  obtain ⟨t, ht⟩ : ∃ t : Fin cfg1.N, t.val = (i 0).val / 200 :=
    ⟨⟨(i 0).val / 200, by show _ < grid1.N; rw [Gen.N_1]; omega⟩, rfl⟩
  obtain ⟨-, -, -, -, -, -, -, -, e0, e1⟩ := idx1_facts t
  refine ⟨t, Gen.flush1_5 t, ?_⟩
  rw [mem_blk1]
  intro a
  match a with
  | ⟨0, _⟩ =>
    show win1_5.index t (0 : Fin 2) * 200 ≤ (i 0).val ∧ (i 0).val < win1_5.index t (0 : Fin 2) * 200 + 200
    rw [e0, ht]; omega
  | ⟨1, _⟩ =>
    show win1_5.index t (1 : Fin 2) * 16 ≤ (i 1).val ∧ (i 1).val < win1_5.index t (1 : Fin 2) * 16 + 16
    rw [e1]; omega

/-- THE RESULT ARRAY after the region: the network applied to every row of the first operand. -/
theorem final1 (c : Dev nD) :
    (Gen.dat1 (F := Ideal) V c).arrAt 5 cfg1.N = Cert.Mlp.arr (V c main_arg1 : S5000x10000.Idx → EReal) (V c main_arg9 : S10000x64.Idx → EReal) (V c main_arg10 : S64.Idx → EReal) (V c main_arg11 : S64x16.Idx → EReal) (V c main_arg12 : S16.Idx → EReal) :=
  (Gen.dat1 (F := Ideal) V c).arrAt_eq_of_cover 5 _ (fun t _ => flushed1_eq V c t) (cover1)

end Cert.KernelIdeal.Val

end
-- ==== Proof.Region2.lean ====
/-
  Region 2: the result array after the tiled call is one function of the five operands as the call finds them.
  Every grid point t stores, into rows t·2000 … t·2000+1999 of the result, the two-layer network of the same rows of the
  first operand (the four small operands are read whole at every point); the 50 row tiles cover all 100000 rows, so the
  array ends as the network applied row by row.
-/
import proofs.«167168_j47227460387322_1_alg».proof.Proof.Gen.KernelIdeal.Frame
import proofs.«167168_j47227460387322_1_alg».proof.Proof.LibMlp

set_option maxRecDepth 16384

noncomputable section

namespace Cert.KernelIdeal.Val

open Cert.KernelIdeal Cert.KernelIdeal.Facts₀ Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

/-- The tile's stored value at (p, q): the network of row p of the tile (the tile is first recast to its own shape,
    which changes nothing). -/
theorem pay2_apply (x0 : Vec Ideal S2000x32 .f32) (x1 : Vec Ideal S32x64 .f32) (x2 : Vec Ideal S64 .f32)
    (x3 : Vec Ideal S64x1 .f32) (x4 : Vec Ideal S1 .f32) (p : Fin 2000) (q : Fin 1) :
    Gen.k2_pay1 x0 x1 x2 x3 x4 (ix2 p q)
      = Cert.Mlp.net (fun l => x0 (ix2 p l)) (fun l j => x1 (ix2 l j)) (fun j => x2 (ix1 j))
          (fun j q => x3 (ix2 j q)) (fun q => x4 (ix1 q)) q := by
  unfold Gen.k2_pay1
  rw [shapeCast_self (s := S2000x32)]
  exact Cert.Mlp.body_apply _ rfl _ rfl x0 x1 x2 x3 x4 _ _ _ _ _ p q

/-- Where each window's block sits at grid point t: the first operand's and the result's at row block t, the four
    small operands' at block zero. -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The first operand's tile at point t, entry (p, l): the operand at row t·2000 + p. -/
theorem blk2_0 (c : Dev nD) (t : Fin cfg2.N) (p : Fin 2000) (l : Fin 32) (ρ : Fin 100000)
    (hρ : ρ.val = t.val * 2000 + p.val) :
    (Gen.iblk2 V c 0 t : Vec Ideal S2000x32 .f32) (ix2 p l) = (V c main_v63 : S100000x32.Idx → EReal) (ix2 ρ l) := by
  obtain ⟨e0, e1, -⟩ := idx2_facts t
  unfold Gen.iblk2
  rw [View.read_apply]
  refine congrArg (V c main_v63 : S100000x32.Idx → EReal) ?_
  funext a; apply Fin.ext
  match a with
  | ⟨0, _⟩ => show win2_0.index t (0 : Fin 2) * 2000 + 1 * p.val = ρ.val; rw [e0, hρ]; omega
  | ⟨1, _⟩ => show win2_0.index t (1 : Fin 2) * 32 + 1 * l.val = l.val; rw [e1]; omega

/-- The first layer's weights are read whole at every point. -/
theorem blk2_1 (c : Dev nD) (t : Fin cfg2.N) :
    (Gen.iblk2 V c 1 t : Vec Ideal S32x64 .f32) = (V c main_arg13 : S32x64.Idx → EReal) := by
  obtain ⟨-, -, e0, e1, -⟩ := idx2_facts t
  funext x
  unfold Gen.iblk2
  rw [View.read_apply]
  refine congrArg (V c main_arg13 : S32x64.Idx → EReal) ?_
  funext a; apply Fin.ext
  match a with
  | ⟨0, _⟩ => show win2_1.index t (0 : Fin 2) * 32 + 1 * (x 0).val = (x 0).val; rw [e0]; omega
  | ⟨1, _⟩ => show win2_1.index t (1 : Fin 2) * 64 + 1 * (x 1).val = (x 1).val; rw [e1]; omega

/-- The first layer's bias is read whole at every point. -/
theorem blk2_2 (c : Dev nD) (t : Fin cfg2.N) :
    (Gen.iblk2 V c 2 t : Vec Ideal S64 .f32) = (V c main_arg14 : S64.Idx → EReal) := by
  obtain ⟨-, -, -, -, e0, -⟩ := idx2_facts t
  funext x
  unfold Gen.iblk2
  rw [View.read_apply]
  refine congrArg (V c main_arg14 : S64.Idx → EReal) ?_
  funext a; apply Fin.ext
  match a with
  | ⟨0, _⟩ => show win2_2.index t (0 : Fin 1) * 64 + 1 * (x 0).val = (x 0).val; rw [e0]; omega

/-- The second layer's weights are read whole at every point. -/
theorem blk2_3 (c : Dev nD) (t : Fin cfg2.N) :
    (Gen.iblk2 V c 3 t : Vec Ideal S64x1 .f32) = (V c main_arg15 : S64x1.Idx → EReal) := by
  obtain ⟨-, -, -, -, -, e0, e1, -⟩ := idx2_facts t
  funext x
  unfold Gen.iblk2
  rw [View.read_apply]
  refine congrArg (V c main_arg15 : S64x1.Idx → EReal) ?_
  funext a; apply Fin.ext
  match a with
  | ⟨0, _⟩ => show win2_3.index t (0 : Fin 2) * 64 + 1 * (x 0).val = (x 0).val; rw [e0]; omega
  | ⟨1, _⟩ => show win2_3.index t (1 : Fin 2) * 1 + 1 * (x 1).val = (x 1).val; rw [e1]; omega

/-- The second layer's bias is read whole at every point. -/
theorem blk2_4 (c : Dev nD) (t : Fin cfg2.N) :
    (Gen.iblk2 V c 4 t : Vec Ideal S1 .f32) = (V c main_arg16 : S1.Idx → EReal) := by
  obtain ⟨-, -, -, -, -, -, -, e0, -⟩ := idx2_facts t
  funext x
  unfold Gen.iblk2
  rw [View.read_apply]
  refine congrArg (V c main_arg16 : S1.Idx → EReal) ?_
  funext a; apply Fin.ext
  match a with
  | ⟨0, _⟩ => show win2_4.index t (0 : Fin 1) * 1 + 1 * (x 0).val = (x 0).val; rw [e0]; omega

/-- What point t leaves in the result's tile, entry j: the whole-array function at the entry's place in the array. -/
theorem point2 (c : Dev nD) (t : Fin cfg2.N) (j : S2000x1.Idx) :
    Gen.k2_pay1 (Gen.iblk2 V c 0 t) (Gen.iblk2 V c 1 t) (Gen.iblk2 V c 2 t) (Gen.iblk2 V c 3 t) (Gen.iblk2 V c 4 t) j
      = Cert.Mlp.arr (V c main_v63 : S100000x32.Idx → EReal) (V c main_arg13 : S32x64.Idx → EReal) (V c main_arg14 : S64.Idx → EReal) (V c main_arg15 : S64x1.Idx → EReal) (V c main_arg16 : S1.Idx → EReal) (((cfg2.win 5).blk t).view.emb j) := by
  obtain ⟨p, q, rfl⟩ : ∃ (p : Fin 2000) (q : Fin 1), j = ix2 p q := ⟨j 0, j 1, eq_ix2 j⟩
  obtain ⟨-, -, -, -, -, -, -, -, e0, e1⟩ := idx2_facts t
  have ht : t.val < 50 := lt_of_lt_of_eq t.isLt Gen.N_2
  have hemb : ((cfg2.win 5).blk t).view.emb (ix2 p q)
      = (ix2 (⟨t.val * 2000 + p.val, by have := p.isLt; omega⟩ : Fin 100000) q : S100000x1.Idx) := by
    funext a; apply Fin.ext
    match a with
    | ⟨0, _⟩ => show win2_5.index t (0 : Fin 2) * 2000 + 1 * p.val = t.val * 2000 + p.val; rw [e0]; omega
    | ⟨1, _⟩ => show win2_5.index t (1 : Fin 2) * 1 + 1 * q.val = q.val; rw [e1]; omega
  refine (pay2_apply (Gen.iblk2 V c 0 t) (Gen.iblk2 V c 1 t) (Gen.iblk2 V c 2 t) (Gen.iblk2 V c 3 t) (Gen.iblk2 V c 4 t) p q).trans ?_
  rw [hemb, Cert.Mlp.arr_apply, blk2_1 V c t, blk2_2 V c t, blk2_3 V c t, blk2_4 V c t]
  refine congrArg (fun x => Cert.Mlp.net x _ _ _ _ q) ?_
  funext l
  exact blk2_0 V c t p l _ rfl

/-- WHAT POINT t WRITES BACK is tile t of the whole-array function of the operands. -/
theorem flushed2_eq (c : Dev nD) (t : Fin cfg2.N) :
    (Gen.dat2 (F := Ideal) V c).flushed 5 t
      = ((cfg2.win 5).blk t).view.read (Elt Ideal) (Cert.Mlp.arr (V c main_v63 : S100000x32.Idx → EReal) (V c main_arg13 : S32x64.Idx → EReal) (V c main_arg14 : S64.Idx → EReal) (V c main_arg15 : S64x1.Idx → EReal) (V c main_arg16 : S1.Idx → EReal)) := by
  show (cfg2.win 5).cut (grid2.coords t) ((Gen.dat2 V c).after 5 t) = _
  rw [Gen.after2_5]
  unfold Gen.out2_5
  rw [View.canon_unit_zero hz2]
  simp only [View.ld_unit_zero (S := S2000x32) hz2, View.ld_unit_zero (S := S32x64) hz2, View.ld_unit_zero (S := S64) hz1,
    View.ld_unit_zero (S := S64x1) hz2, View.ld_unit_zero (S := S1) hz1]
  funext j
  exact point2 V c t j

/-- An index of the result is in point t's tile iff each coordinate is in the tile's range on its axis. -/
theorem mem_blk2 (t : Fin cfg2.N) (i : S100000x1.Idx) :
    i ∈ ((cfg2.win 5).blk t).view.set ↔ ∀ a : Fin 2, win2_5.index t a * S2000x1.size a ≤ (i a).val ∧ (i a).val < win2_5.index t a * S2000x1.size a + S2000x1.size a := by
  show i ∈ ((View.whole main_v64).slice (win2_5.rect t)).set ↔ _
  rw [View.set_slice_whole, Rect.mem_set_unit]
  exact Iff.rfl

/-- Every index of the result is in some point's tile: row ρ is in tile ρ / 2000. -/
theorem cover2 (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  obtain ⟨t, ht⟩ : ∃ t : Fin cfg2.N, t.val = (i 0).val / 2000 :=
    ⟨⟨(i 0).val / 2000, by show _ < grid2.N; rw [Gen.N_2]; omega⟩, rfl⟩
  obtain ⟨-, -, -, -, -, -, -, -, e0, e1⟩ := idx2_facts t
  refine ⟨t, Gen.flush2_5 t, ?_⟩
  rw [mem_blk2]
  intro a
  match a with
  | ⟨0, _⟩ =>
    show win2_5.index t (0 : Fin 2) * 2000 ≤ (i 0).val ∧ (i 0).val < win2_5.index t (0 : Fin 2) * 2000 + 2000
    rw [e0, ht]; omega
  | ⟨1, _⟩ =>
    show win2_5.index t (1 : Fin 2) * 1 ≤ (i 1).val ∧ (i 1).val < win2_5.index t (1 : Fin 2) * 1 + 1
    rw [e1]; omega

/-- THE RESULT ARRAY after the region: the network applied to every row of the first operand. -/
theorem final2 (c : Dev nD) :
    (Gen.dat2 (F := Ideal) V c).arrAt 5 cfg2.N = Cert.Mlp.arr (V c main_v63 : S100000x32.Idx → EReal) (V c main_arg13 : S32x64.Idx → EReal) (V c main_arg14 : S64.Idx → EReal) (V c main_arg15 : S64x1.Idx → EReal) (V c main_arg16 : S1.Idx → EReal) :=
  (Gen.dat2 (F := Ideal) V c).arrAt_eq_of_cover 5 _ (fun t _ => flushed2_eq V c t) (cover2)

end Cert.KernelIdeal.Val

end
-- ==== Proof.Whole.lean ====
/-
  The whole program as one function of its twenty-one argument arrays: the two encoders (two affine layers with a clamp
  at zero after each, row by row) on the user and the item features; their outputs stacked, propagated three rounds
  along the edges, averaged and gathered into one table of pairs (`mid`); the same two-layer network on each pair's
  row; the resulting column scaled and shifted by the gathered per-user constants (`tail`).
-/
import proofs.«167168_j47227460387322_1_alg».proof.Proof.KHost
import proofs.«167168_j47227460387322_1_alg».proof.Proof.LibMlp

noncomputable section

namespace Cert.KernelIdeal.Val

open Cert.KernelIdeal Idealize.ShloMosaic

/-- The result array from the argument arrays, at the ideal values. -/
def whole
    (a0 : (⟨S10000x5000, .f32⟩ : BufTy).Contents (Elt Ideal)) (a1 : (⟨S5000x10000, .f32⟩ : BufTy).Contents (Elt Ideal))
    (a2 a3 : (⟨S1500000, .i32⟩ : BufTy).Contents (Elt Ideal)) (a4 : (⟨S1500000, .f32⟩ : BufTy).Contents (Elt Ideal))
    (a5 : (⟨S5000x64, .f32⟩ : BufTy).Contents (Elt Ideal)) (a6 : (⟨S64, .f32⟩ : BufTy).Contents (Elt Ideal))
    (a7 : (⟨S64x16, .f32⟩ : BufTy).Contents (Elt Ideal)) (a8 : (⟨S16, .f32⟩ : BufTy).Contents (Elt Ideal))
    (a9 : (⟨S10000x64, .f32⟩ : BufTy).Contents (Elt Ideal)) (a10 : (⟨S64, .f32⟩ : BufTy).Contents (Elt Ideal))
    (a11 : (⟨S64x16, .f32⟩ : BufTy).Contents (Elt Ideal)) (a12 : (⟨S16, .f32⟩ : BufTy).Contents (Elt Ideal))
    (a13 : (⟨S32x64, .f32⟩ : BufTy).Contents (Elt Ideal)) (a14 : (⟨S64, .f32⟩ : BufTy).Contents (Elt Ideal))
    (a15 : (⟨S64x1, .f32⟩ : BufTy).Contents (Elt Ideal)) (a16 : (⟨S1, .f32⟩ : BufTy).Contents (Elt Ideal))
    (a17 a18 : (⟨S10000, .f32⟩ : BufTy).Contents (Elt Ideal))
    (a19 a20 : (⟨S100000, .i32⟩ : BufTy).Contents (Elt Ideal)) : (⟨S100000, .f32⟩ : BufTy).Contents (Elt Ideal) :=
  tail (F := Ideal)
    (Cert.Mlp.arr
      (mid (F := Ideal) (Cert.Mlp.arr a0 a5 a6 a7 a8) (Cert.Mlp.arr a1 a9 a10 a11 a12) a2 a3 a4 a19 a20)
      a13 a14 a15 a16)
    a17 a18 a19

end Cert.KernelIdeal.Val

end
-- ==== Proof.KValue.lean ====
/-
  The tiled program's run ends with its result array at `whole` of the argument arrays: the result is the host tail of
  the third call's output; that output is the two-layer network of the table the host operations build from the first
  two calls' outputs; and each of those is the two-layer network of the corresponding features — every call's output
  array being one function of the contents its region finds on entry, and every argument array reaching each region
  and each host stretch as launched.
-/
import proofs.«167168_j47227460387322_1_alg».proof.Proof.KRun
import proofs.«167168_j47227460387322_1_alg».proof.Proof.KFold
import proofs.«167168_j47227460387322_1_alg».proof.Proof.Region0
import proofs.«167168_j47227460387322_1_alg».proof.Proof.Region1
import proofs.«167168_j47227460387322_1_alg».proof.Proof.Region2
import proofs.«167168_j47227460387322_1_alg».proof.Proof.Whole

noncomputable section

namespace Cert.KernelIdeal.Val

open Cert.KernelIdeal Idealize.ShloMosaic Idealize.ShloMosaic.TcCoe Idealize.SL.Sem

variable (m : (ℓ : Loc nD τ sig) → Buf (Elt Ideal) ℓ) (ρ : Dev nD → PrngReg)

/-- The contents of the result buffer after the last host stretch. -/
theorem W5_whole (c : Dev nD) :
    Gen.W5 m ρ c (Proc.devRef .tc main_v81) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  have e0 : Gen.W2 m ρ c (Proc.devRef .tc main_v0)
      = Cert.Mlp.arr (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) := by
    rw [W2_out0, final0 (Gen.V0 m ρ) c, V0_arg0, V0_arg5, V0_arg6, V0_arg7, V0_arg8]
  have e1 : Gen.W2 m ρ c (Proc.devRef .tc main_v1)
      = Cert.Mlp.arr (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) := by
    rw [W2_out1, final1 (Gen.V1 m ρ) c, V1_arg1, V1_arg9, V1_arg10, V1_arg11, V1_arg12]
  have ep : Gen.V3 m ρ c main_v63
      = mid (F := Ideal) (Gen.W2 m ρ c (Proc.devRef .tc main_v0)) (Gen.W2 m ρ c (Proc.devRef .tc main_v1))
          (m ((c.tc : Thread nD τ).loc main_arg2)) (m ((c.tc : Thread nD τ).loc main_arg3)) (m ((c.tc : Thread nD τ).loc main_arg4))
          (m ((c.tc : Thread nD τ).loc main_arg19)) (m ((c.tc : Thread nD τ).loc main_arg20)) := W3_pair m ρ c
  rw [W5_result, W4_out, final2 (Gen.V3 m ρ) c, V3_arg13, V3_arg14, V3_arg15, V3_arg16, ep, e0, e1]
  rfl

/-- Every weakly fair execution of the tiled program terminates with its result at `whole` of the arguments and the
    arguments unchanged. -/
theorem run_whole :
    θ_run defs (onTc (τ := τ) (main (F := Ideal))) ⟨m, fun _ => 0, ρ⟩ (fun r => ∀ c : Dev nD,
        r.2.mem ((c.tc : Thread nD τ).loc main_v81) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)) :=
  (θ_run defs _ _).mono (fun r h c => ⟨(h c).1.trans (W5_whole m ρ c), (h c).2⟩) (run_result (F := Ideal) m ρ)

end Cert.KernelIdeal.Val

end
-- ==== Proof.RefOps.lean ====
/-
  The reference program's operations as a list, in five stretches cut where its three two-layer networks begin and
  end; the program is their concatenation run in order. The fold of the buffer contents through a concatenation is
  the fold through the second list of the fold through the first, and a stretch keeps every buffer it does not write.
-/
import proofs.«167168_j47227460387322_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in five stretches -/

/-- The first encoder: two matrix products, each followed by its bias and a clamp at zero. -/
abbrev opsA : List (HloOp τ sig (Elt F)) :=
  [ binary main_arg0 main_arg5 main_v0 ((fun l r => Host.dotGeneral dot_S10000x5000_S5000x64_S10000x64_1_0_0_1_n_n none l r) : (⟨S10000x5000, .f32⟩ : BufTy).Contents (Elt F) → (⟨S5000x64, .f32⟩ : BufTy).Contents (Elt F) → (⟨S10000x64, .f32⟩ : BufTy).Contents (Elt F)),
    unary main_arg6 main_v1 (broadcastInDim S1x64 ![1] bcast_S64_S1x64_1 : (⟨S64, .f32⟩ : BufTy).Contents (Elt F) → (⟨S1x64, .f32⟩ : BufTy).Contents (Elt F)),
    unary main_v1 main_v2 (broadcastInDim S10000x64 ![0, 1] bcast_S1x64_S10000x64_0_1 : (⟨S1x64, .f32⟩ : BufTy).Contents (Elt F) → (⟨S10000x64, .f32⟩ : BufTy).Contents (Elt F)),
    binary main_v0 main_v2 main_v3 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x64, .f32⟩) main_call0_v0) (broadcastInDim S10000x64 ![] bcast_S_S10000x64),
    TRef.binary (TRef.of (T := ⟨S10000x64, .f32⟩) main_v3) (TRef.of (T := ⟨S10000x64, .f32⟩) main_call0_v0) (TRef.of (T := ⟨S10000x64, .f32⟩) main_v4) maximumf,
    binary main_v4 main_arg7 main_v5 ((fun l r => Host.dotGeneral dot_S10000x64_S64x16_S10000x16_1_0_0_1_n_n none l r) : (⟨S10000x64, .f32⟩ : BufTy).Contents (Elt F) → (⟨S64x16, .f32⟩ : BufTy).Contents (Elt F) → (⟨S10000x16, .f32⟩ : BufTy).Contents (Elt F)),
    unary main_arg8 main_v6 (broadcastInDim S1x16 ![1] bcast_S16_S1x16_1 : (⟨S16, .f32⟩ : BufTy).Contents (Elt F) → (⟨S1x16, .f32⟩ : BufTy).Contents (Elt F)),
    unary main_v6 main_v7 (broadcastInDim S10000x16 ![0, 1] bcast_S1x16_S10000x16_0_1 : (⟨S1x16, .f32⟩ : BufTy).Contents (Elt F) → (⟨S10000x16, .f32⟩ : BufTy).Contents (Elt F)),
    binary main_v5 main_v7 main_v8 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x16, .f32⟩) main_call1_v0) (broadcastInDim S10000x16 ![] bcast_S_S10000x16),
    TRef.binary (TRef.of (T := ⟨S10000x16, .f32⟩) main_v8) (TRef.of (T := ⟨S10000x16, .f32⟩) main_call1_v0) (TRef.of (T := ⟨S10000x16, .f32⟩) main_v9) maximumf ]

/-- The second encoder, the same on the item features. -/
abbrev opsB : List (HloOp τ sig (Elt F)) :=
  [ binary main_arg1 main_arg9 main_v10 ((fun l r => Host.dotGeneral dot_S5000x10000_S10000x64_S5000x64_1_0_0_1_n_n none l r) : (⟨S5000x10000, .f32⟩ : BufTy).Contents (Elt F) → (⟨S10000x64, .f32⟩ : BufTy).Contents (Elt F) → (⟨S5000x64, .f32⟩ : BufTy).Contents (Elt F)),
    unary main_arg10 main_v11 (broadcastInDim S1x64 ![1] bcast_S64_S1x64_1 : (⟨S64, .f32⟩ : BufTy).Contents (Elt F) → (⟨S1x64, .f32⟩ : BufTy).Contents (Elt F)),
    unary main_v11 main_v12 (broadcastInDim S5000x64 ![0, 1] bcast_S1x64_S5000x64_0_1 : (⟨S1x64, .f32⟩ : BufTy).Contents (Elt F) → (⟨S5000x64, .f32⟩ : BufTy).Contents (Elt F)),
    binary main_v10 main_v12 main_v13 (addf : (⟨S5000x64, .f32⟩ : BufTy).Contents (Elt F) → (⟨S5000x64, .f32⟩ : BufTy).Contents (Elt F) → (⟨S5000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S5000x64, .f32⟩) main_call2_v0) (broadcastInDim S5000x64 ![] bcast_S_S5000x64),
    TRef.binary (TRef.of (T := ⟨S5000x64, .f32⟩) main_v13) (TRef.of (T := ⟨S5000x64, .f32⟩) main_call2_v0) (TRef.of (T := ⟨S5000x64, .f32⟩) main_v14) maximumf,
    binary main_v14 main_arg11 main_v15 ((fun l r => Host.dotGeneral dot_S5000x64_S64x16_S5000x16_1_0_0_1_n_n none l r) : (⟨S5000x64, .f32⟩ : BufTy).Contents (Elt F) → (⟨S64x16, .f32⟩ : BufTy).Contents (Elt F) → (⟨S5000x16, .f32⟩ : BufTy).Contents (Elt F)),
    unary main_arg12 main_v16 (broadcastInDim S1x16 ![1] bcast_S16_S1x16_1 : (⟨S16, .f32⟩ : BufTy).Contents (Elt F) → (⟨S1x16, .f32⟩ : BufTy).Contents (Elt F)),
    unary main_v16 main_v17 (broadcastInDim S5000x16 ![0, 1] bcast_S1x16_S5000x16_0_1 : (⟨S1x16, .f32⟩ : BufTy).Contents (Elt F) → (⟨S5000x16, .f32⟩ : BufTy).Contents (Elt F)),
    binary main_v15 main_v17 main_v18 (addf : (⟨S5000x16, .f32⟩ : BufTy).Contents (Elt F) → (⟨S5000x16, .f32⟩ : BufTy).Contents (Elt F) → (⟨S5000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S5000x16, .f32⟩) main_call3_v0) (broadcastInDim S5000x16 ![] bcast_S_S5000x16),
    TRef.binary (TRef.of (T := ⟨S5000x16, .f32⟩) main_v18) (TRef.of (T := ⟨S5000x16, .f32⟩) main_call3_v0) (TRef.of (T := ⟨S5000x16, .f32⟩) main_v19) maximumf ]

/-- The two outputs stacked, three rounds of propagation along the edges, the average, the two gathers and their join. -/
abbrev opsC : List (HloOp τ sig (Elt F)) :=
  [ binary main_v9 main_v19 main_v20 ((fun a b => concatenate S15000x16 0 [⟨S10000x16, a⟩, ⟨S5000x16, b⟩] concatenates_S10000x16_S5000x16_S15000x16_d0) : (⟨S10000x16, .f32⟩ : BufTy).Contents (Elt F) → (⟨S5000x16, .f32⟩ : BufTy).Contents (Elt F) → (⟨S15000x16, .f32⟩ : BufTy).Contents (Elt F)),
    unary main_arg4 main_v21 (broadcastInDim S1500000x1 ![0] bcast_S1500000_S1500000x1_0 : (⟨S1500000, .f32⟩ : BufTy).Contents (Elt F) → (⟨S1500000x1, .f32⟩ : BufTy).Contents (Elt F)),
    nullary main_c (constantI S_ 32 0#32),
    unary main_c main_v22 (broadcastInDim S1500000 ![] bcast_S_S1500000 : (⟨S_, .i32⟩ : BufTy).Contents (Elt F) → (⟨S1500000, .i32⟩ : BufTy).Contents (Elt F)),
    binary main_arg3 main_v22 main_v23 (cmpi .slt : (⟨S1500000, .i32⟩ : BufTy).Contents (Elt F) → (⟨S1500000, .i32⟩ : BufTy).Contents (Elt F) → (⟨S1500000, .i1⟩ : BufTy).Contents (Elt F)),
    nullary main_c_0 (constantI S_ 32 15000#32),
    unary main_c_0 main_v24 (broadcastInDim S1500000 ![] bcast_S_S1500000 : (⟨S_, .i32⟩ : BufTy).Contents (Elt F) → (⟨S1500000, .i32⟩ : BufTy).Contents (Elt F)),
    binary main_arg3 main_v24 main_v25 (addi : (⟨S1500000, .i32⟩ : BufTy).Contents (Elt F) → (⟨S1500000, .i32⟩ : BufTy).Contents (Elt F) → (⟨S1500000, .i32⟩ : BufTy).Contents (Elt F)),
    ternary main_v23 main_v25 main_arg3 main_v26 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v26 main_v27 (broadcastInDim S1500000x1 ![0] bcast_S1500000_S1500000x1_0 : (⟨S1500000, .i32⟩ : BufTy).Contents (Elt F) → (⟨S1500000x1, .i32⟩ : BufTy).Contents (Elt F)),
    binary main_v20 main_v27 main_v28 ((fun x i => Host.gather gather_S15000x16_S1500000x1_S1500000x16_1_0_n_n_0_1_116 x i) : (⟨S15000x16, .f32⟩ : BufTy).Contents (Elt F) → (⟨S1500000x1, .i32⟩ : BufTy).Contents (Elt F) → (⟨S1500000x16, .f32⟩ : BufTy).Contents (Elt F)),
    unary main_v21 main_v29 (broadcastInDim S1500000x16 ![0, 1] bcast_S1500000x1_S1500000x16_0_1 : (⟨S1500000x1, .f32⟩ : BufTy).Contents (Elt F) → (⟨S1500000x16, .f32⟩ : BufTy).Contents (Elt F)),
    binary main_v29 main_v28 main_v30 (mulf : (⟨S1500000x16, .f32⟩ : BufTy).Contents (Elt F) → (⟨S1500000x16, .f32⟩ : BufTy).Contents (Elt F) → (⟨S1500000x16, .f32⟩ : BufTy).Contents (Elt F)),
    nullary main_cst (constant S_ .f32 0x00000000#32),
    unary main_cst main_v31 (broadcastInDim S15000x16 ![] bcast_S_S15000x16 : (⟨S_, .f32⟩ : BufTy).Contents (Elt F) → (⟨S15000x16, .f32⟩ : BufTy).Contents (Elt F)),
    unary main_arg2 main_v32 (broadcastInDim S1500000x1 ![0] bcast_S1500000_S1500000x1_0 : (⟨S1500000, .i32⟩ : BufTy).Contents (Elt F) → (⟨S1500000x1, .i32⟩ : BufTy).Contents (Elt F)),
    ternary main_v31 main_v32 main_v30 main_v33 ((fun x i u => Host.scatterAdd scatter_S15000x16_S1500000x1_S1500000x16_1_0_0_1 x i u) : (⟨S15000x16, .f32⟩ : BufTy).Contents (Elt F) → (⟨S1500000x1, .i32⟩ : BufTy).Contents (Elt F) → (⟨S1500000x16, .f32⟩ : BufTy).Contents (Elt F) → (⟨S15000x16, .f32⟩ : BufTy).Contents (Elt F)),
    binary main_v20 main_v33 main_v34 (addf : (⟨S15000x16, .f32⟩ : BufTy).Contents (Elt F) → (⟨S15000x16, .f32⟩ : BufTy).Contents (Elt F) → (⟨S15000x16, .f32⟩ : BufTy).Contents (Elt F)),
    unary main_arg4 main_v35 (broadcastInDim S1500000x1 ![0] bcast_S1500000_S1500000x1_0 : (⟨S1500000, .f32⟩ : BufTy).Contents (Elt F) → (⟨S1500000x1, .f32⟩ : BufTy).Contents (Elt F)),
    nullary main_c_1 (constantI S_ 32 0#32),
    unary main_c_1 main_v36 (broadcastInDim S1500000 ![] bcast_S_S1500000 : (⟨S_, .i32⟩ : BufTy).Contents (Elt F) → (⟨S1500000, .i32⟩ : BufTy).Contents (Elt F)),
    binary main_arg3 main_v36 main_v37 (cmpi .slt : (⟨S1500000, .i32⟩ : BufTy).Contents (Elt F) → (⟨S1500000, .i32⟩ : BufTy).Contents (Elt F) → (⟨S1500000, .i1⟩ : BufTy).Contents (Elt F)),
    nullary main_c_2 (constantI S_ 32 15000#32),
    unary main_c_2 main_v38 (broadcastInDim S1500000 ![] bcast_S_S1500000 : (⟨S_, .i32⟩ : BufTy).Contents (Elt F) → (⟨S1500000, .i32⟩ : BufTy).Contents (Elt F)),
    binary main_arg3 main_v38 main_v39 (addi : (⟨S1500000, .i32⟩ : BufTy).Contents (Elt F) → (⟨S1500000, .i32⟩ : BufTy).Contents (Elt F) → (⟨S1500000, .i32⟩ : BufTy).Contents (Elt F)),
    ternary main_v37 main_v39 main_arg3 main_v40 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v40 main_v41 (broadcastInDim S1500000x1 ![0] bcast_S1500000_S1500000x1_0 : (⟨S1500000, .i32⟩ : BufTy).Contents (Elt F) → (⟨S1500000x1, .i32⟩ : BufTy).Contents (Elt F)),
    binary main_v33 main_v41 main_v42 ((fun x i => Host.gather gather_S15000x16_S1500000x1_S1500000x16_1_0_n_n_0_1_116 x i) : (⟨S15000x16, .f32⟩ : BufTy).Contents (Elt F) → (⟨S1500000x1, .i32⟩ : BufTy).Contents (Elt F) → (⟨S1500000x16, .f32⟩ : BufTy).Contents (Elt F)),
    unary main_v35 main_v43 (broadcastInDim S1500000x16 ![0, 1] bcast_S1500000x1_S1500000x16_0_1 : (⟨S1500000x1, .f32⟩ : BufTy).Contents (Elt F) → (⟨S1500000x16, .f32⟩ : BufTy).Contents (Elt F)),
    binary main_v43 main_v42 main_v44 (mulf : (⟨S1500000x16, .f32⟩ : BufTy).Contents (Elt F) → (⟨S1500000x16, .f32⟩ : BufTy).Contents (Elt F) → (⟨S1500000x16, .f32⟩ : BufTy).Contents (Elt F)),
    nullary main_cst_3 (constant S_ .f32 0x00000000#32),
    unary main_cst_3 main_v45 (broadcastInDim S15000x16 ![] bcast_S_S15000x16 : (⟨S_, .f32⟩ : BufTy).Contents (Elt F) → (⟨S15000x16, .f32⟩ : BufTy).Contents (Elt F)),
    unary main_arg2 main_v46 (broadcastInDim S1500000x1 ![0] bcast_S1500000_S1500000x1_0 : (⟨S1500000, .i32⟩ : BufTy).Contents (Elt F) → (⟨S1500000x1, .i32⟩ : BufTy).Contents (Elt F)),
    ternary main_v45 main_v46 main_v44 main_v47 ((fun x i u => Host.scatterAdd scatter_S15000x16_S1500000x1_S1500000x16_1_0_0_1 x i u) : (⟨S15000x16, .f32⟩ : BufTy).Contents (Elt F) → (⟨S1500000x1, .i32⟩ : BufTy).Contents (Elt F) → (⟨S1500000x16, .f32⟩ : BufTy).Contents (Elt F) → (⟨S15000x16, .f32⟩ : BufTy).Contents (Elt F)),
    binary main_v34 main_v47 main_v48 (addf : (⟨S15000x16, .f32⟩ : BufTy).Contents (Elt F) → (⟨S15000x16, .f32⟩ : BufTy).Contents (Elt F) → (⟨S15000x16, .f32⟩ : BufTy).Contents (Elt F)),
    unary main_arg4 main_v49 (broadcastInDim S1500000x1 ![0] bcast_S1500000_S1500000x1_0 : (⟨S1500000, .f32⟩ : BufTy).Contents (Elt F) → (⟨S1500000x1, .f32⟩ : BufTy).Contents (Elt F)),
    nullary main_c_4 (constantI S_ 32 0#32),
    unary main_c_4 main_v50 (broadcastInDim S1500000 ![] bcast_S_S1500000 : (⟨S_, .i32⟩ : BufTy).Contents (Elt F) → (⟨S1500000, .i32⟩ : BufTy).Contents (Elt F)),
    binary main_arg3 main_v50 main_v51 (cmpi .slt : (⟨S1500000, .i32⟩ : BufTy).Contents (Elt F) → (⟨S1500000, .i32⟩ : BufTy).Contents (Elt F) → (⟨S1500000, .i1⟩ : BufTy).Contents (Elt F)),
    nullary main_c_5 (constantI S_ 32 15000#32),
    unary main_c_5 main_v52 (broadcastInDim S1500000 ![] bcast_S_S1500000 : (⟨S_, .i32⟩ : BufTy).Contents (Elt F) → (⟨S1500000, .i32⟩ : BufTy).Contents (Elt F)),
    binary main_arg3 main_v52 main_v53 (addi : (⟨S1500000, .i32⟩ : BufTy).Contents (Elt F) → (⟨S1500000, .i32⟩ : BufTy).Contents (Elt F) → (⟨S1500000, .i32⟩ : BufTy).Contents (Elt F)),
    ternary main_v51 main_v53 main_arg3 main_v54 (select : (⟨S1500000, .i1⟩ : BufTy).Contents (Elt F) → (⟨S1500000, .i32⟩ : BufTy).Contents (Elt F) → (⟨S1500000, .i32⟩ : BufTy).Contents (Elt F) → (⟨S1500000, .i32⟩ : BufTy).Contents (Elt F)),
    unary main_v54 main_v55 (broadcastInDim S1500000x1 ![0] bcast_S1500000_S1500000x1_0 : (⟨S1500000, .i32⟩ : BufTy).Contents (Elt F) → (⟨S1500000x1, .i32⟩ : BufTy).Contents (Elt F)),
    binary main_v47 main_v55 main_v56 ((fun x i => Host.gather gather_S15000x16_S1500000x1_S1500000x16_1_0_n_n_0_1_116 x i) : (⟨S15000x16, .f32⟩ : BufTy).Contents (Elt F) → (⟨S1500000x1, .i32⟩ : BufTy).Contents (Elt F) → (⟨S1500000x16, .f32⟩ : BufTy).Contents (Elt F)),
    unary main_v49 main_v57 (broadcastInDim S1500000x16 ![0, 1] bcast_S1500000x1_S1500000x16_0_1 : (⟨S1500000x1, .f32⟩ : BufTy).Contents (Elt F) → (⟨S1500000x16, .f32⟩ : BufTy).Contents (Elt F)),
    binary main_v57 main_v56 main_v58 (mulf : (⟨S1500000x16, .f32⟩ : BufTy).Contents (Elt F) → (⟨S1500000x16, .f32⟩ : BufTy).Contents (Elt F) → (⟨S1500000x16, .f32⟩ : BufTy).Contents (Elt F)),
    nullary main_cst_6 (constant S_ .f32 0x00000000#32),
    unary main_cst_6 main_v59 (broadcastInDim S15000x16 ![] bcast_S_S15000x16 : (⟨S_, .f32⟩ : BufTy).Contents (Elt F) → (⟨S15000x16, .f32⟩ : BufTy).Contents (Elt F)),
    unary main_arg2 main_v60 (broadcastInDim S1500000x1 ![0] bcast_S1500000_S1500000x1_0 : (⟨S1500000, .i32⟩ : BufTy).Contents (Elt F) → (⟨S1500000x1, .i32⟩ : BufTy).Contents (Elt F)),
    ternary main_v59 main_v60 main_v58 main_v61 ((fun x i u => Host.scatterAdd scatter_S15000x16_S1500000x1_S1500000x16_1_0_0_1 x i u) : (⟨S15000x16, .f32⟩ : BufTy).Contents (Elt F) → (⟨S1500000x1, .i32⟩ : BufTy).Contents (Elt F) → (⟨S1500000x16, .f32⟩ : BufTy).Contents (Elt F) → (⟨S15000x16, .f32⟩ : BufTy).Contents (Elt F)),
    binary main_v48 main_v61 main_v62 (addf : (⟨S15000x16, .f32⟩ : BufTy).Contents (Elt F) → (⟨S15000x16, .f32⟩ : BufTy).Contents (Elt F) → (⟨S15000x16, .f32⟩ : BufTy).Contents (Elt F)),
    nullary main_cst_7 (constant S_ .f32 0x40800000#32),
    unary main_cst_7 main_v63 (broadcastInDim S15000x16 ![] bcast_S_S15000x16 : (⟨S_, .f32⟩ : BufTy).Contents (Elt F) → (⟨S15000x16, .f32⟩ : BufTy).Contents (Elt F)),
    binary main_v62 main_v63 main_v64 (Host.divf : (⟨S15000x16, .f32⟩ : BufTy).Contents (Elt F) → (⟨S15000x16, .f32⟩ : BufTy).Contents (Elt F) → (⟨S15000x16, .f32⟩ : BufTy).Contents (Elt F)),
    unary main_v64 main_v65 ((extractStridedSlice S10000x16 ![0, 0] · slices_S15000x16_S10000x16_0_0) : (⟨S15000x16, .f32⟩ : BufTy).Contents (Elt F) → (⟨S10000x16, .f32⟩ : BufTy).Contents (Elt F)),
    unary main_v64 main_v66 ((extractStridedSlice S5000x16 ![10000, 0] · slices_S15000x16_S5000x16_10000_0) : (⟨S15000x16, .f32⟩ : BufTy).Contents (Elt F) → (⟨S5000x16, .f32⟩ : BufTy).Contents (Elt F)),
    nullary main_c_8 (constantI S_ 32 0#32),
    unary main_c_8 main_v67 (broadcastInDim S100000 ![] bcast_S_S100000 : (⟨S_, .i32⟩ : BufTy).Contents (Elt F) → (⟨S100000, .i32⟩ : BufTy).Contents (Elt F)),
    binary main_arg19 main_v67 main_v68 (cmpi .slt : (⟨S100000, .i32⟩ : BufTy).Contents (Elt F) → (⟨S100000, .i32⟩ : BufTy).Contents (Elt F) → (⟨S100000, .i1⟩ : BufTy).Contents (Elt F)),
    nullary main_c_9 (constantI S_ 32 10000#32),
    unary main_c_9 main_v69 (broadcastInDim S100000 ![] bcast_S_S100000 : (⟨S_, .i32⟩ : BufTy).Contents (Elt F) → (⟨S100000, .i32⟩ : BufTy).Contents (Elt F)),
    binary main_arg19 main_v69 main_v70 (addi : (⟨S100000, .i32⟩ : BufTy).Contents (Elt F) → (⟨S100000, .i32⟩ : BufTy).Contents (Elt F) → (⟨S100000, .i32⟩ : BufTy).Contents (Elt F)),
    ternary main_v68 main_v70 main_arg19 main_v71 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v71 main_v72 (broadcastInDim S100000x1 ![0] bcast_S100000_S100000x1_0 : (⟨S100000, .i32⟩ : BufTy).Contents (Elt F) → (⟨S100000x1, .i32⟩ : BufTy).Contents (Elt F)),
    binary main_v65 main_v72 main_v73 ((fun x i => Host.gather gather_S10000x16_S100000x1_S100000x16_1_0_n_n_0_1_116 x i) : (⟨S10000x16, .f32⟩ : BufTy).Contents (Elt F) → (⟨S100000x1, .i32⟩ : BufTy).Contents (Elt F) → (⟨S100000x16, .f32⟩ : BufTy).Contents (Elt F)),
    nullary main_c_10 (constantI S_ 32 0#32),
    unary main_c_10 main_v74 (broadcastInDim S100000 ![] bcast_S_S100000 : (⟨S_, .i32⟩ : BufTy).Contents (Elt F) → (⟨S100000, .i32⟩ : BufTy).Contents (Elt F)),
    binary main_arg20 main_v74 main_v75 (cmpi .slt : (⟨S100000, .i32⟩ : BufTy).Contents (Elt F) → (⟨S100000, .i32⟩ : BufTy).Contents (Elt F) → (⟨S100000, .i1⟩ : BufTy).Contents (Elt F)),
    nullary main_c_11 (constantI S_ 32 5000#32),
    unary main_c_11 main_v76 (broadcastInDim S100000 ![] bcast_S_S100000 : (⟨S_, .i32⟩ : BufTy).Contents (Elt F) → (⟨S100000, .i32⟩ : BufTy).Contents (Elt F)),
    binary main_arg20 main_v76 main_v77 (addi : (⟨S100000, .i32⟩ : BufTy).Contents (Elt F) → (⟨S100000, .i32⟩ : BufTy).Contents (Elt F) → (⟨S100000, .i32⟩ : BufTy).Contents (Elt F)),
    ternary main_v75 main_v77 main_arg20 main_v78 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v78 main_v79 (broadcastInDim S100000x1 ![0] bcast_S100000_S100000x1_0 : (⟨S100000, .i32⟩ : BufTy).Contents (Elt F) → (⟨S100000x1, .i32⟩ : BufTy).Contents (Elt F)),
    binary main_v66 main_v79 main_v80 ((fun x i => Host.gather gather_S5000x16_S100000x1_S100000x16_1_0_n_n_0_1_116 x i) : (⟨S5000x16, .f32⟩ : BufTy).Contents (Elt F) → (⟨S100000x1, .i32⟩ : BufTy).Contents (Elt F) → (⟨S100000x16, .f32⟩ : BufTy).Contents (Elt F)),
    binary main_v73 main_v80 main_v81 ((fun a b => concatenate S100000x32 1 [⟨S100000x16, a⟩, ⟨S100000x16, b⟩] concatenates_S100000x16_S100000x16_S100000x32_d1) : (⟨S100000x16, .f32⟩ : BufTy).Contents (Elt F) → (⟨S100000x16, .f32⟩ : BufTy).Contents (Elt F) → (⟨S100000x32, .f32⟩ : BufTy).Contents (Elt F)) ]

/-- The ranking network on the table of pairs. -/
abbrev opsD : List (HloOp τ sig (Elt F)) :=
  [ binary main_v81 main_arg13 main_v82 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    unary main_arg14 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v82 main_v84 main_v85 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v85) (TRef.of (T := ⟨S100000x64, .f32⟩) main_call4_v0) (TRef.of (T := ⟨S100000x64, .f32⟩) main_v86) maximumf,
    binary main_v86 main_arg15 main_v87 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg16 main_v88 (broadcastInDim S1x1 ![1] bcast_S1_S1x1_1 : (⟨S1, .f32⟩ : BufTy).Contents (Elt F) → (⟨S1x1, .f32⟩ : BufTy).Contents (Elt F)),
    unary main_v88 main_v89 (broadcastInDim S100000x1 ![0, 1] bcast_S1x1_S100000x1_0_1 : (⟨S1x1, .f32⟩ : BufTy).Contents (Elt F) → (⟨S100000x1, .f32⟩ : BufTy).Contents (Elt F)),
    binary main_v87 main_v89 main_v90 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x1, .f32⟩) main_call5_v0) (broadcastInDim S100000x1 ![] bcast_S_S100000x1),
    TRef.binary (TRef.of (T := ⟨S100000x1, .f32⟩) main_v90) (TRef.of (T := ⟨S100000x1, .f32⟩) main_call5_v0) (TRef.of (T := ⟨S100000x1, .f32⟩) main_v91) maximumf ]

/-- The column recast as a vector, scaled and shifted by the gathered per-user constants. -/
abbrev opsE : List (HloOp τ sig (Elt F)) :=
  [ reshape main_v91 main_v92 rfl shapeCasts_S100000x1_S100000,
    nullary main_c_12 (constantI S_ 32 0#32),
    unary main_c_12 main_v93 (broadcastInDim S100000 ![] bcast_S_S100000 : (⟨S_, .i32⟩ : BufTy).Contents (Elt F) → (⟨S100000, .i32⟩ : BufTy).Contents (Elt F)),
    binary main_arg19 main_v93 main_v94 (cmpi .slt : (⟨S100000, .i32⟩ : BufTy).Contents (Elt F) → (⟨S100000, .i32⟩ : BufTy).Contents (Elt F) → (⟨S100000, .i1⟩ : BufTy).Contents (Elt F)),
    nullary main_c_13 (constantI S_ 32 10000#32),
    unary main_c_13 main_v95 (broadcastInDim S100000 ![] bcast_S_S100000 : (⟨S_, .i32⟩ : BufTy).Contents (Elt F) → (⟨S100000, .i32⟩ : BufTy).Contents (Elt F)),
    binary main_arg19 main_v95 main_v96 (addi : (⟨S100000, .i32⟩ : BufTy).Contents (Elt F) → (⟨S100000, .i32⟩ : BufTy).Contents (Elt F) → (⟨S100000, .i32⟩ : BufTy).Contents (Elt F)),
    ternary main_v94 main_v96 main_arg19 main_v97 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v97 main_v98 (broadcastInDim S100000x1 ![0] bcast_S100000_S100000x1_0 : (⟨S100000, .i32⟩ : BufTy).Contents (Elt F) → (⟨S100000x1, .i32⟩ : BufTy).Contents (Elt F)),
    binary main_arg18 main_v98 main_v99 ((fun x i => Host.gather gather_S10000_S100000x1_S100000_n_0_n_n_0_1_1 x i) : (⟨S10000, .f32⟩ : BufTy).Contents (Elt F) → (⟨S100000x1, .i32⟩ : BufTy).Contents (Elt F) → (⟨S100000, .f32⟩ : BufTy).Contents (Elt F)),
    binary main_v92 main_v99 main_v100 (mulf : (⟨S100000, .f32⟩ : BufTy).Contents (Elt F) → (⟨S100000, .f32⟩ : BufTy).Contents (Elt F) → (⟨S100000, .f32⟩ : BufTy).Contents (Elt F)),
    nullary main_c_14 (constantI S_ 32 0#32),
    unary main_c_14 main_v101 (broadcastInDim S100000 ![] bcast_S_S100000 : (⟨S_, .i32⟩ : BufTy).Contents (Elt F) → (⟨S100000, .i32⟩ : BufTy).Contents (Elt F)),
    binary main_arg19 main_v101 main_v102 (cmpi .slt : (⟨S100000, .i32⟩ : BufTy).Contents (Elt F) → (⟨S100000, .i32⟩ : BufTy).Contents (Elt F) → (⟨S100000, .i1⟩ : BufTy).Contents (Elt F)),
    nullary main_c_15 (constantI S_ 32 10000#32),
    unary main_c_15 main_v103 (broadcastInDim S100000 ![] bcast_S_S100000 : (⟨S_, .i32⟩ : BufTy).Contents (Elt F) → (⟨S100000, .i32⟩ : BufTy).Contents (Elt F)),
    binary main_arg19 main_v103 main_v104 (addi : (⟨S100000, .i32⟩ : BufTy).Contents (Elt F) → (⟨S100000, .i32⟩ : BufTy).Contents (Elt F) → (⟨S100000, .i32⟩ : BufTy).Contents (Elt F)),
    ternary main_v102 main_v104 main_arg19 main_v105 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v105 main_v106 (broadcastInDim S100000x1 ![0] bcast_S100000_S100000x1_0 : (⟨S100000, .i32⟩ : BufTy).Contents (Elt F) → (⟨S100000x1, .i32⟩ : BufTy).Contents (Elt F)),
    binary main_arg17 main_v106 main_v107 ((fun x i => Host.gather gather_S10000_S100000x1_S100000_n_0_n_n_0_1_1 x i) : (⟨S10000, .f32⟩ : BufTy).Contents (Elt F) → (⟨S100000x1, .i32⟩ : BufTy).Contents (Elt F) → (⟨S100000, .f32⟩ : BufTy).Contents (Elt F)),
    binary main_v100 main_v107 main_v108 (addf : (⟨S100000, .f32⟩ : BufTy).Contents (Elt F) → (⟨S100000, .f32⟩ : BufTy).Contents (Elt F) → (⟨S100000, .f32⟩ : BufTy).Contents (Elt F)) ]

/-- The whole program: the five stretches in order. -/
abbrev ops : List (HloOp τ sig (Elt F)) := opsA ++ opsB ++ opsC ++ opsD ++ opsE

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

set_option maxRecDepth 8192 in
theorem opsA_sub : (opsA : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsA_fresh : ∀ op ∈ (opsA : List (HloOp τ sig (Elt F))), op.fresh = ∅ := by
  intro _ h; (repeat (cases h with | head => rfl | tail _ h => ?_)); exact nomatch h
set_option maxRecDepth 8192 in
theorem opsB_sub : (opsB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsB_fresh : ∀ op ∈ (opsB : List (HloOp τ sig (Elt F))), op.fresh = ∅ := by
  intro _ h; (repeat (cases h with | head => rfl | tail _ h => ?_)); exact nomatch h
set_option maxRecDepth 8192 in
theorem opsC_sub : (opsC : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsC_fresh : ∀ op ∈ (opsC : List (HloOp τ sig (Elt F))), op.fresh = ∅ := by
  intro _ h; (repeat (cases h with | head => rfl | tail _ h => ?_)); exact nomatch h
set_option maxRecDepth 8192 in
theorem opsD_sub : (opsD : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsD_fresh : ∀ op ∈ (opsD : List (HloOp τ sig (Elt F))), op.fresh = ∅ := by
  intro _ h; (repeat (cases h with | head => rfl | tail _ h => ?_)); exact nomatch h
set_option maxRecDepth 8192 in
theorem opsE_sub : (opsE : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsE_fresh : ∀ op ∈ (opsE : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  forall_append (forall_append (forall_append (forall_append opsA_sub opsB_sub) opsC_sub) opsD_sub) opsE_sub

theorem ops_fresh : ∀ op ∈ (ops : List (HloOp τ sig (Elt F))), op.fresh = ∅ := fun op h =>
  (List.mem_append.mp h).elim (fun h => (List.mem_append.mp h).elim (fun h => (List.mem_append.mp h).elim
    (fun h => (List.mem_append.mp h).elim (opsA_fresh op) (opsB_fresh op)) (opsC_fresh op)) (opsD_fresh op)) (opsE_fresh op)

/-! ## The fold, cut at a concatenation; what a stretch does not write, it keeps -/

/-- The contents after two lists of operations run in order: the second list's fold of the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffers that stretch A writes. -/
abbrev opsA_W : List (Ref sig .tc) := [main_v0, main_v1, main_v2, main_v3, main_call0_cst, main_call0_v0, main_v4, main_v5, main_v6, main_v7, main_v8, main_call1_cst, main_call1_v0, main_v9]
set_option maxRecDepth 8192 in
theorem opsA_writes : (opsA : List (HloOp τ sig (Elt F))).Forall fun op =>
    op.writes ⊆ (opsA_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer that stretch A does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- The buffers that stretch B writes. -/
abbrev opsB_W : List (Ref sig .tc) := [main_v10, main_v11, main_v12, main_v13, main_call2_cst, main_call2_v0, main_v14, main_v15, main_v16, main_v17, main_v18, main_call3_cst, main_call3_v0, main_v19]
set_option maxRecDepth 8192 in
theorem opsB_writes : (opsB : List (HloOp τ sig (Elt F))).Forall fun op =>
    op.writes ⊆ (opsB_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer that stretch B does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- The buffers that stretch C writes. -/
abbrev opsC_W : List (Ref sig .tc) := [main_v20, main_v21, main_c, main_v22, main_v23, main_c_0, main_v24, main_v25, main_v26, main_v27, main_v28, main_v29, main_v30, main_cst, main_v31, main_v32, main_v33, main_v34, main_v35, main_c_1, main_v36, main_v37, main_c_2, main_v38, main_v39, main_v40, main_v41, main_v42, main_v43, main_v44, main_cst_3, main_v45, main_v46, main_v47, main_v48, main_v49, main_c_4, main_v50, main_v51, main_c_5, main_v52, main_v53, main_v54, main_v55, main_v56, main_v57, main_v58, main_cst_6, main_v59, main_v60, main_v61, main_v62, main_cst_7, main_v63, main_v64, main_v65, main_v66, main_c_8, main_v67, main_v68, main_c_9, main_v69, main_v70, main_v71, main_v72, main_v73, main_c_10, main_v74, main_v75, main_c_11, main_v76, main_v77, main_v78, main_v79, main_v80, main_v81]
set_option maxRecDepth 8192 in
theorem opsC_writes : (opsC : List (HloOp τ sig (Elt F))).Forall fun op =>
    op.writes ⊆ (opsC_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer that stretch C does not write keeps its contents through it. -/
theorem keepC (V : Valuation τ sig (Elt F)) (r : Ref sig .tc) (h : r ∉ opsC_W) :
    after opsC V (Proc.devRef .tc r) = V (Proc.devRef .tc r) :=
  after_of_writes_sub opsC V opsC_writes h

/-- The buffers that stretch D writes. -/
abbrev opsD_W : List (Ref sig .tc) := [main_v82, main_v83, main_v84, main_v85, main_call4_cst, main_call4_v0, main_v86, main_v87, main_v88, main_v89, main_v90, main_call5_cst, main_call5_v0, main_v91]
set_option maxRecDepth 8192 in
theorem opsD_writes : (opsD : List (HloOp τ sig (Elt F))).Forall fun op =>
    op.writes ⊆ (opsD_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer that stretch D does not write keeps its contents through it. -/
theorem keepD (V : Valuation τ sig (Elt F)) (r : Ref sig .tc) (h : r ∉ opsD_W) :
    after opsD V (Proc.devRef .tc r) = V (Proc.devRef .tc r) :=
  after_of_writes_sub opsD V opsD_writes h

/-- The buffers that stretch E writes. -/
abbrev opsE_W : List (Ref sig .tc) := [main_v92, main_c_12, main_v93, main_v94, main_c_13, main_v95, main_v96, main_v97, main_v98, main_v99, main_v100, main_c_14, main_v101, main_v102, main_c_15, main_v103, main_v104, main_v105, main_v106, main_v107, main_v108]
set_option maxRecDepth 8192 in
theorem opsE_writes : (opsE : List (HloOp τ sig (Elt F))).Forall fun op =>
    op.writes ⊆ (opsE_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer that stretch E does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

/-- A value carried into a typed buffer and read back out is the value. -/
theorem ofBuf_toBuf {T : BufTy} (x : TRef sig T) (v : T.Contents (Elt F)) : x.ofBuf (x.toBuf v) = v := by
  obtain ⟨r, h, h1, h2⟩ := x; subst h; rfl

end Cert.ReferenceIdeal.HandRun

end
-- ==== Proof.RefRun.lean ====
/-
  The reference program's run, read in five stretches. Each stretch's result is stated over ANY contents it may start
  from: a two-layer network of five operands, row by row, for the three networks; the tiled program's own host
  operations, one for one, for the stretch between the networks and the stretch after them. Composed through the
  cut fold, the result is the same function of the twenty-one argument arrays as the tiled program's.
-/
import proofs.«167168_j47227460387322_1_alg».proof.Proof.RefOps
import proofs.«167168_j47227460387322_1_alg».proof.Proof.Whole

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## Each stretch's result, from any contents -/

/-- Stretch A's result, from any contents: the two-layer network of its five operands, row by row. -/
theorem resA (V : Valuation τ sig (Elt Ideal)) :
    after (opsA (F := Ideal)) V (Proc.devRef .tc main_v9)
      = Cert.Mlp.arr (V (Proc.devRef .tc main_arg0)) (V (Proc.devRef .tc main_arg5)) (V (Proc.devRef .tc main_arg6)) (V (Proc.devRef .tc main_arg7)) (V (Proc.devRef .tc main_arg8)) := by
  after_results_simp
  simp only [ofBuf_toBuf]
  funext i
  obtain ⟨p, q, rfl⟩ : ∃ (p : Fin 10000) (q : Fin 16), i = ValueIdx.ix2 p q := ⟨i 0, i 1, ValueIdx.eq_ix2 i⟩
  rw [Cert.Mlp.arr_apply]
  exact Cert.Mlp.host_apply _ rfl _ rfl _ _ _ _ _ bcast_S64_S1x64_1 bcast_S1x64_S10000x64_0_1 bcast_S_S10000x64
    bcast_S16_S1x16_1 bcast_S1x16_S10000x16_0_1 bcast_S_S10000x16 p q

/-- Stretch B's result, from any contents: the two-layer network of its five operands, row by row. -/
theorem resB (V : Valuation τ sig (Elt Ideal)) :
    after (opsB (F := Ideal)) V (Proc.devRef .tc main_v19)
      = Cert.Mlp.arr (V (Proc.devRef .tc main_arg1)) (V (Proc.devRef .tc main_arg9)) (V (Proc.devRef .tc main_arg10)) (V (Proc.devRef .tc main_arg11)) (V (Proc.devRef .tc main_arg12)) := by
  after_results_simp
  simp only [ofBuf_toBuf]
  funext i
  obtain ⟨p, q, rfl⟩ : ∃ (p : Fin 5000) (q : Fin 16), i = ValueIdx.ix2 p q := ⟨i 0, i 1, ValueIdx.eq_ix2 i⟩
  rw [Cert.Mlp.arr_apply]
  exact Cert.Mlp.host_apply _ rfl _ rfl _ _ _ _ _ bcast_S64_S1x64_1 bcast_S1x64_S5000x64_0_1 bcast_S_S5000x64
    bcast_S16_S1x16_1 bcast_S1x16_S5000x16_0_1 bcast_S_S5000x16 p q

/-- Two joined pieces may each be replaced by an equal one. -/
theorem concatenate_pair_congr {α : Type} {t s₁ s₂ : Shape} {a : Fin t.rank} {x x' : s₁.Idx → α} {y y' : s₂.Idx → α}
    (h : Shape.Concatenates (([⟨s₁, x⟩, ⟨s₂, y⟩] : List ((s : Shape) × (s.Idx → α))).map (·.1)) t a)
    (h' : Shape.Concatenates (([⟨s₁, x'⟩, ⟨s₂, y'⟩] : List ((s : Shape) × (s.Idx → α))).map (·.1)) t a)
    (hx : x = x') (hy : y = y') :
    concatenate t a [⟨s₁, x⟩, ⟨s₂, y⟩] h = concatenate t a [⟨s₁, x'⟩, ⟨s₂, y'⟩] h' := by
  subst hx hy; rfl

set_option maxHeartbeats 4000000 in
/-- Stretch C's result, from any contents: the tiled program's own host operations between its second and third
    call, one for one. -/
theorem resC (V : Valuation τ sig (Elt Ideal)) :
    after (opsC (F := Ideal)) V (Proc.devRef .tc main_v81)
      = Cert.KernelIdeal.Val.mid (F := Ideal) (V (Proc.devRef .tc main_v9)) (V (Proc.devRef .tc main_v19)) (V (Proc.devRef .tc main_arg2)) (V (Proc.devRef .tc main_arg3)) (V (Proc.devRef .tc main_arg4)) (V (Proc.devRef .tc main_arg19)) (V (Proc.devRef .tc main_arg20)) := by
  after_results_simp
  unfold Cert.KernelIdeal.Val.mid
  dsimp only
  refine concatenate_pair_congr _ _ ?_ ?_
  · after_results_simp
    rfl
  · after_results_simp
    rfl

/-- Stretch D's result, from any contents: the two-layer network of its five operands, row by row. -/
theorem resD (V : Valuation τ sig (Elt Ideal)) :
    after (opsD (F := Ideal)) V (Proc.devRef .tc main_v91)
      = Cert.Mlp.arr (V (Proc.devRef .tc main_v81)) (V (Proc.devRef .tc main_arg13)) (V (Proc.devRef .tc main_arg14)) (V (Proc.devRef .tc main_arg15)) (V (Proc.devRef .tc main_arg16)) := by
  after_results_simp
  simp only [ofBuf_toBuf]
  funext i
  obtain ⟨p, q, rfl⟩ : ∃ (p : Fin 100000) (q : Fin 1), i = ValueIdx.ix2 p q := ⟨i 0, i 1, ValueIdx.eq_ix2 i⟩
  rw [Cert.Mlp.arr_apply]
  exact Cert.Mlp.host_apply _ rfl _ rfl _ _ _ _ _ bcast_S64_S1x64_1 bcast_S1x64_S100000x64_0_1 bcast_S_S100000x64
    bcast_S1_S1x1_1 bcast_S1x1_S100000x1_0_1 bcast_S_S100000x1 p q

/-- Stretch E's result, from any contents: the tiled program's own host operations after its last call. -/
theorem resE (V : Valuation τ sig (Elt Ideal)) :
    after (opsE (F := Ideal)) V (Proc.devRef .tc main_v108)
      = Cert.KernelIdeal.Val.tail (F := Ideal) (V (Proc.devRef .tc main_v91)) (V (Proc.devRef .tc main_arg17)) (V (Proc.devRef .tc main_arg18)) (V (Proc.devRef .tc main_arg19)) := by
  after_results_simp
  rfl

/-! ## The composition -/

/-- A buffer that no stretch writes keeps its contents through the whole program. -/
theorem keep (V : Valuation τ sig (Elt Ideal)) (r : Ref sig .tc) (hA : r ∉ opsA_W) (hB : r ∉ opsB_W) (hC : r ∉ opsC_W)
    (hD : r ∉ opsD_W) (hE : r ∉ opsE_W) :
    after (ops (F := Ideal)) V (Proc.devRef .tc r) = V (Proc.devRef .tc r) := by
  simp only [ops, after_append]
  rw [keepE _ r hE, keepD _ r hD, keepC _ r hC, keepB _ r hB, keepA _ r hA]

/-- THE RESULT from any contents: the tiled program's function of the twenty-one argument arrays. -/
theorem value (V : Valuation τ sig (Elt Ideal)) :
    after (ops (F := Ideal)) V (Proc.devRef .tc main_v108)
      = Cert.KernelIdeal.Val.whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  simp only [ops, after_append]
  rw [resE, resD, keepD _ main_arg17 (by decide), keepD _ main_arg18 (by decide), keepD _ main_arg19 (by decide)]
  rw [resC, keepC _ main_arg13 (by decide), keepC _ main_arg14 (by decide), keepC _ main_arg15 (by decide), keepC _ main_arg16 (by decide), keepC _ main_arg17 (by decide), keepC _ main_arg18 (by decide), keepC _ main_arg19 (by decide)]
  rw [resB, keepB _ main_v9 (by decide), keepB _ main_arg2 (by decide), keepB _ main_arg3 (by decide), keepB _ main_arg4 (by decide), keepB _ main_arg13 (by decide), keepB _ main_arg14 (by decide), keepB _ main_arg15 (by decide), keepB _ main_arg16 (by decide), keepB _ main_arg17 (by decide), keepB _ main_arg18 (by decide), keepB _ main_arg19 (by decide), keepB _ main_arg20 (by decide)]
  rw [resA, keepA _ main_arg1 (by decide), keepA _ main_arg2 (by decide), keepA _ main_arg3 (by decide), keepA _ main_arg4 (by decide), keepA _ main_arg9 (by decide), keepA _ main_arg10 (by decide), keepA _ main_arg11 (by decide), keepA _ main_arg12 (by decide), keepA _ main_arg13 (by decide), keepA _ main_arg14 (by decide), keepA _ main_arg15 (by decide), keepA _ main_arg16 (by decide), keepA _ main_arg17 (by decide), keepA _ main_arg18 (by decide), keepA _ main_arg19 (by decide), keepA _ main_arg20 (by decide)]
  rfl

/-- On every device, from any memory with zero counters: every weakly fair execution of the reference program
    terminates with its result at the tiled program's function of the arguments' launch contents, the arguments unchanged. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v108) = Cert.KernelIdeal.Val.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v108).trans (value (launchContents m c)),
      (h c main_arg0).trans (keep (launchContents m c) main_arg0 (by decide) (by decide) (by decide) (by decide) (by decide)),
      (h c main_arg1).trans (keep (launchContents m c) main_arg1 (by decide) (by decide) (by decide) (by decide) (by decide)),
      (h c main_arg2).trans (keep (launchContents m c) main_arg2 (by decide) (by decide) (by decide) (by decide) (by decide)),
      (h c main_arg3).trans (keep (launchContents m c) main_arg3 (by decide) (by decide) (by decide) (by decide) (by decide)),
      (h c main_arg4).trans (keep (launchContents m c) main_arg4 (by decide) (by decide) (by decide) (by decide) (by decide)),
      (h c main_arg5).trans (keep (launchContents m c) main_arg5 (by decide) (by decide) (by decide) (by decide) (by decide)),
      (h c main_arg6).trans (keep (launchContents m c) main_arg6 (by decide) (by decide) (by decide) (by decide) (by decide)),
      (h c main_arg7).trans (keep (launchContents m c) main_arg7 (by decide) (by decide) (by decide) (by decide) (by decide)),
      (h c main_arg8).trans (keep (launchContents m c) main_arg8 (by decide) (by decide) (by decide) (by decide) (by decide)),
      (h c main_arg9).trans (keep (launchContents m c) main_arg9 (by decide) (by decide) (by decide) (by decide) (by decide)),
      (h c main_arg10).trans (keep (launchContents m c) main_arg10 (by decide) (by decide) (by decide) (by decide) (by decide)),
      (h c main_arg11).trans (keep (launchContents m c) main_arg11 (by decide) (by decide) (by decide) (by decide) (by decide)),
      (h c main_arg12).trans (keep (launchContents m c) main_arg12 (by decide) (by decide) (by decide) (by decide) (by decide)),
      (h c main_arg13).trans (keep (launchContents m c) main_arg13 (by decide) (by decide) (by decide) (by decide) (by decide)),
      (h c main_arg14).trans (keep (launchContents m c) main_arg14 (by decide) (by decide) (by decide) (by decide) (by decide)),
      (h c main_arg15).trans (keep (launchContents m c) main_arg15 (by decide) (by decide) (by decide) (by decide) (by decide)),
      (h c main_arg16).trans (keep (launchContents m c) main_arg16 (by decide) (by decide) (by decide) (by decide) (by decide)),
      (h c main_arg17).trans (keep (launchContents m c) main_arg17 (by decide) (by decide) (by decide) (by decide) (by decide)),
      (h c main_arg18).trans (keep (launchContents m c) main_arg18 (by decide) (by decide) (by decide) (by decide) (by decide)),
      (h c main_arg19).trans (keep (launchContents m c) main_arg19 (by decide) (by decide) (by decide) (by decide) (by decide)),
      (h c main_arg20).trans (keep (launchContents m c) main_arg20 (by decide) (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.lean ====
/-
  A recommender's forward pass: two encoders (each two affine layers with a clamp at zero after each) turn the user and
  the item features into 16 numbers per node; the node table is propagated three rounds along a weighted edge list and
  averaged with itself; each (user, item) pair's two rows go through a third two-layer network to one number, which is
  scaled and shifted by per-user constants.

  The tiled program computes each of the three networks tile of rows by tile of rows on the matrix unit, with a change
  of float format before each product; the reference computes each with two whole matrix products. At the ideal values
  a change of format is the identity and a tile's rows depend only on the same rows of the input, so each network's
  output array is the same function of its operands either way (`Cert.Mlp.arr`); everything between and after the
  networks — the gathers, the accumulating scatters, the division by four, the slices and concatenations — is the same
  list of host operations in both programs. Hence both end with the result array at one and the same function `whole`
  of the argument arrays. No finiteness of the inputs is used: the two sides are the same expression, entry by entry.
  The ideal-valued tiled program is the word-level program's text, operation for operation, so that conjunct is
  trivial; each frame is the program's run with the result forgotten.
-/
import proofs.«167168_j47227460387322_1_alg».proof.Defs
import proofs.«167168_j47227460387322_1_alg».proof.Proof.Gen.Kernel
import proofs.«167168_j47227460387322_1_alg».proof.Proof.Gen.Kernel.Skeleton
import proofs.«167168_j47227460387322_1_alg».proof.Proof.Gen.Kernel.Launch
import proofs.«167168_j47227460387322_1_alg».proof.Proof.Gen.Kernel.Points
import proofs.«167168_j47227460387322_1_alg».proof.Proof.Gen.Kernel.Frame
import proofs.«167168_j47227460387322_1_alg».proof.Proof.Gen.KernelIdeal
import proofs.«167168_j47227460387322_1_alg».proof.Proof.Gen.KernelIdeal.Skeleton
import proofs.«167168_j47227460387322_1_alg».proof.Proof.Gen.KernelIdeal.Launch
import proofs.«167168_j47227460387322_1_alg».proof.Proof.Gen.KernelIdeal.Points
import proofs.«167168_j47227460387322_1_alg».proof.Proof.Gen.KernelIdeal.Frame
import proofs.«167168_j47227460387322_1_alg».proof.Proof.Gen.ReferenceIdeal
import proofs.«167168_j47227460387322_1_alg».proof.Proof.Gen.Pre_finite_inputs
import proofs.«167168_j47227460387322_1_alg».proof.Proof.KValue
import proofs.«167168_j47227460387322_1_alg».proof.Proof.RefRun
import Idealize.ShloMosaic.Adequacy
import Idealize.ShloMosaic.Init

noncomputable section

namespace Cert.Proof

open Idealize.ShloMosaic Idealize.SL.Sem

theorem frame_tiled : Cert.frame_Kernel := fun m ρ _ => Cert.Kernel.Gen.frame m ρ

theorem frame_tiled_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.HandRun.run_whole m ρ)

/-- Both programs end with the result array at `whole` of the argument arrays, on which the two memories agree. -/
theorem algebraic : Cert.algebraic_KernelIdeal_ReferenceIdeal := by
  intro m ρ m' ρ' _ hagree
  refine ⟨fun c => Cert.KernelIdeal.Val.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    Cert.KernelIdeal.Val.run_whole m ρ, ?_⟩
  refine (θ_run Cert.ReferenceIdeal.defs _ _).mono (fun _ h c => ⟨(h c).1.trans ?_, (h c).2⟩)
    (Cert.ReferenceIdeal.HandRun.run_whole m' ρ')
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_tiled, frame_tiled_ideal, frame_reference, trivial, algebraic⟩

end Cert.Proof

end
